-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x54 : Shape := ⟨2, ![100000, 54]⟩
abbrev S2x3200000 : Shape := ⟨2, ![2, 3200000]⟩
abbrev S54x16 : Shape := ⟨2, ![54, 16]⟩
abbrev S16 : Shape := ⟨1, ![16]⟩
abbrev S16x32 : Shape := ⟨2, ![16, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x54 : S_.BroadcastsInDim S100000x54 (![] : Fin 0 → Fin S100000x54.rank)
  reducesTo_S100000x54_S_d0_1 : S100000x54.ReducesTo [0, 1] S_
  h_S_ : 0 < S_.numel
  bcast_S_S54x16 : S_.BroadcastsInDim S54x16 (![] : Fin 0 → Fin S54x16.rank)
  reducesTo_S54x16_S_d0_1 : S54x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S32x1 .f32) (main_arg9 : FVec F S1 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S32 .f32) (main_arg6 : FVec F S32x32 .f32) (main_arg7 : FVec F S32 .f32) (main_arg8 : FVec F S32x1 .f32) (main_arg9 : FVec F S1 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S100000x54 .f32) (main_arg1 : IVec S2x3200000 32) (main_arg2 : FVec F S54x16 .f32) (main_arg3 : FVec F S16 .f32) (main_arg4 : FVec F S16x32 .f32) (main_arg5 : FVec F S32 .f32) (main_arg6 : FVec F S32x32 .f32) (main_arg7 : FVec F S32 .f32) (main_arg8 : FVec F S32x1 .f32) (main_arg9 : FVec F S1 .f32) : IVec S_ 1 :=
  let main_v0 : FVec F S100000x54 .f32 := Host.absf main_arg0
  let main_cst : FVec F S_ .f32 := constant S_ .f32 0x7F800000#32
  let main_v1 : FVec F S100000x54 .f32 := broadcastInDim S100000x54 ![] bcast_S_S100000x54 main_cst
  let main_v2 : IVec S100000x54 1 := cmpf .olt main_v0 main_v1
  let main_c : IVec S_ 1 := constantI S_ 1 1#1
  let main_v3 : IVec S_ 1 := (fun x v => Host.reduce IntOp.andi x v reducesTo_S100000x54_S_d0_1 h_S_) main_v2 main_c
  let main_v4 : FVec F S54x16 .f32 := Host.absf main_arg2
  let main_cst_0 : FVec F S_ .f32 := constant S_ .f32 0x7F800000#32
  let main_v5 : FVec F S54x16 .f32 := broadcastInDim S54x16 ![] bcast_S_S54x16 main_cst_0
  let main_v6 : IVec S54x16 1 := cmpf .olt main_v4 main_v5
  let main_c_1 : IVec S_ 1 := constantI S_ 1 1#1
  let main_v7 : IVec S_ 1 := (fun x v => Host.reduce IntOp.andi x v reducesTo_S54x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg4
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg5 main_arg6 main_arg7 main_arg8 main_arg9 main_v13 main_v16
-- ==== Kernel.lean ====
abbrev S100000x54 : Shape := ⟨2, ![100000, 54]⟩
abbrev S2x3200000 : Shape := ⟨2, ![2, 3200000]⟩
abbrev S54x16 : Shape := ⟨2, ![54, 16]⟩
abbrev S16 : Shape := ⟨1, ![16]⟩
abbrev S16x32 : Shape := ⟨2, ![16, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x54 : Shape := ⟨2, ![10000, 54]⟩
abbrev S10000x16 : Shape := ⟨2, ![10000, 16]⟩
abbrev S3300000x16 : Shape := ⟨2, ![3300000, 16]⟩
abbrev S1x16 : Shape := ⟨2, ![1, 16]⟩
abbrev S100000x32 : Shape := ⟨2, ![100000, 32]⟩
abbrev S10000x32 : Shape := ⟨2, ![10000, 32]⟩
abbrev S3300000x32 : Shape := ⟨2, ![3300000, 32]⟩
abbrev S1x32 : Shape := ⟨2, ![1, 32]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 143
  | .vmem => 20
  | .smem => 0
  | _ => 0

abbrev hbmTy0_0 (i : Nat) : BufTy := match i % 128 with
  | 0 => ⟨S100000x54, .f32⟩
  | 1 => ⟨S2x3200000, .i32⟩
  | 2 => ⟨S54x16, .f32⟩
  | 3 => ⟨S16, .f32⟩
  | 4 => ⟨S16x32, .f32⟩
  | 5 => ⟨S32, .f32⟩
  | 6 => ⟨S32x32, .f32⟩
  | 7 => ⟨S32, .f32⟩
  | 8 => ⟨S32x1, .f32⟩
  | 9 => ⟨S1, .f32⟩
  | 10 => ⟨S1x3200000, .i32⟩
  | 11 => ⟨S3200000, .i32⟩
  | 12 => ⟨S1x3200000, .i32⟩
  | 13 => ⟨S3200000, .i32⟩
  | 14 => ⟨S100000, .i32⟩
  | 15 => ⟨S3300000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S3300000x1, .f32⟩
  | 54 => ⟨S100000x16, .f32⟩
  | 55 => ⟨S_, .i32⟩
  | 56 => ⟨S3300000, .i32⟩
  | 57 => ⟨S3300000, .i1⟩
  | 58 => ⟨S_, .i32⟩
  | 59 => ⟨S3300000, .i32⟩
  | 60 => ⟨S3300000, .i32⟩
  | 61 => ⟨S3300000, .i32⟩
  | 62 => ⟨S3300000x1, .i32⟩
  | 63 => ⟨S3300000x16, .f32⟩
  | 64 => ⟨S3300000x16, .f32⟩
  | 65 => ⟨S3300000x16, .f32⟩
  | 66 => ⟨S_, .f32⟩
  | 67 => ⟨S100000x16, .f32⟩
  | 68 => ⟨S3300000x1, .i32⟩
  | 69 => ⟨S100000x16, .f32⟩
  | 70 => ⟨S1x16, .f32⟩
  | 71 => ⟨S100000x16, .f32⟩
  | 72 => ⟨S100000x16, .f32⟩
  | 73 => ⟨S_, .f32⟩
  | 74 => ⟨S100000x16, .f32⟩
  | 75 => ⟨S100000x16, .f32⟩
  | 76 => ⟨S100000x32, .f32⟩
  | 77 => ⟨S_, .i32⟩
  | 78 => ⟨S3300000, .i32⟩
  | 79 => ⟨S3300000, .i1⟩
  | 80 => ⟨S_, .i32⟩
  | 81 => ⟨S3300000, .i32⟩
  | 82 => ⟨S3300000, .i32⟩
  | 83 => ⟨S3300000, .i32⟩
  | 84 => ⟨S3300000x1, .i32⟩
  | 85 => ⟨S3300000x32, .f32⟩
  | 86 => ⟨S3300000x32, .f32⟩
  | 87 => ⟨S3300000x32, .f32⟩
  | 88 => ⟨S_, .f32⟩
  | 89 => ⟨S100000x32, .f32⟩
  | 90 => ⟨S3300000x1, .i32⟩
  | 91 => ⟨S100000x32, .f32⟩
  | 92 => ⟨S1x32, .f32⟩
  | 93 => ⟨S100000x32, .f32⟩
  | 94 => ⟨S100000x32, .f32⟩
  | 95 => ⟨S_, .f32⟩
  | 96 => ⟨S100000x32, .f32⟩
  | 97 => ⟨S100000x32, .f32⟩
  | 98 => ⟨S100000x32, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000x32, .f32⟩
  | 108 => ⟨S3300000x32, .f32⟩
  | 109 => ⟨S3300000x32, .f32⟩
  | 110 => ⟨S_, .f32⟩
  | 111 => ⟨S100000x32, .f32⟩
  | 112 => ⟨S3300000x1, .i32⟩
  | 113 => ⟨S100000x32, .f32⟩
  | 114 => ⟨S1x32, .f32⟩
  | 115 => ⟨S100000x32, .f32⟩
  | 116 => ⟨S100000x32, .f32⟩
  | 117 => ⟨S100000x1, .f32⟩
  | 118 => ⟨S_, .i32⟩
  | 119 => ⟨S3300000, .i32⟩
  | 120 => ⟨S3300000, .i1⟩
  | 121 => ⟨S_, .i32⟩
  | 122 => ⟨S3300000, .i32⟩
  | 123 => ⟨S3300000, .i32⟩
  | 124 => ⟨S3300000, .i32⟩
  | 125 => ⟨S3300000x1, .i32⟩
  | 126 => ⟨S3300000x1, .f32⟩
  | 127 => ⟨S3300000x1, .f32⟩
  | _ => ⟨S100000x54, .f32⟩

abbrev hbmTy0_1 (i : Nat) : BufTy := match i % 128 with
  | 0 => ⟨S_, .f32⟩
  | 1 => ⟨S100000x1, .f32⟩
  | 2 => ⟨S3300000x1, .i32⟩
  | 3 => ⟨S100000x1, .f32⟩
  | 4 => ⟨S1x1, .f32⟩
  | 5 => ⟨S100000x1, .f32⟩
  | 6 => ⟨S100000x1, .f32⟩
  | 7 => ⟨S100000x1, .f32⟩
  | 8 => ⟨S100000x1, .f32⟩
  | 9 => ⟨S_, .f32⟩
  | 10 => ⟨S100000x1, .f32⟩
  | 11 => ⟨S100000x1, .f32⟩
  | 12 => ⟨S_, .f32⟩
  | 13 => ⟨S100000x1, .f32⟩
  | 14 => ⟨S100000x1, .f32⟩
  | _ => ⟨S100000x54, .f32⟩

abbrev hbmTy (i : Nat) : BufTy := match i / 128 with
  | 0 => hbmTy0_0 i
  | 1 => hbmTy0_1 i
  | _ => ⟨S100000x54, .f32⟩

abbrev bufTy : (tb : Table) → Fin (tcTables nBuf tb) → BufTy
  | .hbm, ⟨i, _⟩ => hbmTy i
  | .local _ .vmem, ⟨0, _⟩ => ⟨S10000x54, .f32⟩
  | .local _ .vmem, ⟨1, _⟩ => ⟨S10000x54, .f32⟩
  | .local _ .vmem, ⟨2, _⟩ => ⟨S54x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S16x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S32x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S32x1, .f32⟩
  | .local _ .vmem, ⟨18, _⟩ => ⟨S10000x1, .f32⟩
  | .local _ .vmem, ⟨19, _⟩ => ⟨S10000x1, .f32⟩
  | _, _ => ⟨S100000x54, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call2_cst : Ref sig .tc := ⟨.hbm, 95, rfl⟩
abbrev main_call2_v0 : Ref sig .tc := ⟨.hbm, 96, rfl⟩
abbrev main_v66 : Ref sig .tc := ⟨.hbm, 97, rfl⟩
abbrev main_v67 : Ref sig .tc := ⟨.hbm, 98, rfl⟩
abbrev main_c_13 : Ref sig .tc := ⟨.hbm, 99, rfl⟩
abbrev main_v68 : Ref sig .tc := ⟨.hbm, 100, rfl⟩
abbrev main_v69 : Ref sig .tc := ⟨.hbm, 101, rfl⟩
abbrev main_c_14 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_15 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_16 : Ref sig .tc := ⟨.hbm, 118, rfl⟩
abbrev main_v84 : Ref sig .tc := ⟨.hbm, 119, rfl⟩
abbrev main_v85 : Ref sig .tc := ⟨.hbm, 120, rfl⟩
abbrev main_c_17 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_18 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_19 : Ref sig .tc := ⟨.hbm, 137, rfl⟩
abbrev main_v100 : Ref sig .tc := ⟨.hbm, 138, rfl⟩
abbrev main_v101 : Ref sig .tc := ⟨.hbm, 139, rfl⟩
abbrev main_cst_20 : Ref sig .tc := ⟨.hbm, 140, rfl⟩
abbrev main_v102 : Ref sig .tc := ⟨.hbm, 141, rfl⟩
abbrev main_v103 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x54 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S54x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x54_S10000x54_0_0 : ∀ a, (![0, 0] : Fin 2 → Nat) a + S10000x54.size a ≤ S10000x54.size a
  h_S10000x54 : 0 < S10000x54.numel
  bitsLt_bf16_f32 : FTy.bits .bf16 < FTy.bits .f32
  inb_S54x16_S54x16_0_0 : ∀ a, (![0, 0] : Fin 2 → Nat) a + S54x16.size a ≤ S54x16.size a
  h_S54x16 : 0 < S54x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S10000x16_S10000x16 : S10000x16.ShapeCasts S10000x16
  inb_S16x32_S16x32_0_0 : ∀ a, (![0, 0] : Fin 2 → Nat) a + S16x32.size a ≤ S16x32.size a
  h_S16x32 : 0 < S16x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x54_S54x16_S10000x16_1_0_0_1_n_n_wf : DotDims.WF S10000x54 S54x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x32_S10000x32_1_0_0_1_n_n_wf : DotDims.WF S10000x16 S16x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x32_S10000x32_1_0_0_1_n_n_wf : DotDims.WF S10000x32 S32x32 S10000x32 [1] [0] [0] [1] [] []
  dot_S10000x32_S32x1_S10000x1_1_0_0_1_n_n_wf : DotDims.WF S10000x32 S32x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x54.size a ≤ S100000x54.size a
  hwx0_0 : ∀ i : grid0.Coords, EltTy.bits .f32 = 32 ∨ (Rect.block (s := S100000x54) S10000x54.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S54x16.size a ≤ S54x16.size a
  hwx0_1 : ∀ i : grid0.Coords, EltTy.bits .f32 = 32 ∨ (Rect.block (s := S54x16) S54x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x32.size a ≤ S16x32.size a
  hwx1_1 : ∀ i : grid1.Coords, EltTy.bits .f32 = 32 ∨ (Rect.block (s := S16x32) S16x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x1.size a ≤ S32x1.size a
  hwx3_1 : ∀ i : grid3.Coords, EltTy.bits .f32 = 32 ∨ (Rect.block (s := S32x1) S32x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x54_S54x16_S10000x16_1_0_0_1_n_n : DotDims S10000x54 S54x16 S10000x16 where
  lhsContracting := [1]
  rhsContracting := [0]
  lhsNonContracting := [0]
  rhsNonContracting := [1]
  lhsBatch := []
  rhsBatch := []
  wf := dot_S10000x54_S54x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S10000x54.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S54x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v82) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S32x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v83) S10000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x54 : Shape := ⟨2, ![100000, 54]⟩
abbrev S2x3200000 : Shape := ⟨2, ![2, 3200000]⟩
abbrev S54x16 : Shape := ⟨2, ![54, 16]⟩
abbrev S16 : Shape := ⟨1, ![16]⟩
abbrev S16x32 : Shape := ⟨2, ![16, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x32 : Shape := ⟨2, ![100000, 32]⟩
abbrev S3300000x32 : Shape := ⟨2, ![3300000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S100000x54, .f32⟩
  | 1 => ⟨S2x3200000, .i32⟩
  | 2 => ⟨S54x16, .f32⟩
  | 3 => ⟨S16, .f32⟩
  | 4 => ⟨S16x32, .f32⟩
  | 5 => ⟨S32, .f32⟩
  | 6 => ⟨S32x32, .f32⟩
  | 7 => ⟨S32, .f32⟩
  | 8 => ⟨S32x1, .f32⟩
  | 9 => ⟨S1, .f32⟩
  | 10 => ⟨S1x3200000, .i32⟩
  | 11 => ⟨S3200000, .i32⟩
  | 12 => ⟨S1x3200000, .i32⟩
  | 13 => ⟨S3200000, .i32⟩
  | 14 => ⟨S100000, .i32⟩
  | 15 => ⟨S3300000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S3300000x1, .f32⟩
  | 54 => ⟨S100000x16, .f32⟩
  | 55 => ⟨S_, .i32⟩
  | 56 => ⟨S3300000, .i32⟩
  | 57 => ⟨S3300000, .i1⟩
  | 58 => ⟨S_, .i32⟩
  | 59 => ⟨S3300000, .i32⟩
  | 60 => ⟨S3300000, .i32⟩
  | 61 => ⟨S3300000, .i32⟩
  | 62 => ⟨S3300000x1, .i32⟩
  | 63 => ⟨S3300000x16, .f32⟩
  | 64 => ⟨S3300000x16, .f32⟩
  | 65 => ⟨S3300000x16, .f32⟩
  | 66 => ⟨S_, .f32⟩
  | 67 => ⟨S100000x16, .f32⟩
  | 68 => ⟨S3300000x1, .i32⟩
  | 69 => ⟨S100000x16, .f32⟩
  | 70 => ⟨S1x16, .f32⟩
  | 71 => ⟨S100000x16, .f32⟩
  | 72 => ⟨S100000x16, .f32⟩
  | 73 => ⟨S_, .f32⟩
  | 74 => ⟨S100000x16, .f32⟩
  | 75 => ⟨S100000x16, .f32⟩
  | 76 => ⟨S100000x32, .f32⟩
  | 77 => ⟨S_, .i32⟩
  | 78 => ⟨S3300000, .i32⟩
  | 79 => ⟨S3300000, .i1⟩
  | 80 => ⟨S_, .i32⟩
  | 81 => ⟨S3300000, .i32⟩
  | 82 => ⟨S3300000, .i32⟩
  | 83 => ⟨S3300000, .i32⟩
  | 84 => ⟨S3300000x1, .i32⟩
  | 85 => ⟨S3300000x32, .f32⟩
  | 86 => ⟨S3300000x32, .f32⟩
  | 87 => ⟨S3300000x32, .f32⟩
  | 88 => ⟨S_, .f32⟩
  | 89 => ⟨S100000x32, .f32⟩
  | 90 => ⟨S3300000x1, .i32⟩
  | 91 => ⟨S100000x32, .f32⟩
  | 92 => ⟨S1x32, .f32⟩
  | 93 => ⟨S100000x32, .f32⟩
  | 94 => ⟨S100000x32, .f32⟩
  | 95 => ⟨S_, .f32⟩
  | 96 => ⟨S100000x32, .f32⟩
  | 97 => ⟨S100000x32, .f32⟩
  | 98 => ⟨S100000x32, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000x32, .f32⟩
  | 108 => ⟨S3300000x32, .f32⟩
  | 109 => ⟨S3300000x32, .f32⟩
  | 110 => ⟨S_, .f32⟩
  | 111 => ⟨S100000x32, .f32⟩
  | 112 => ⟨S3300000x1, .i32⟩
  | 113 => ⟨S100000x32, .f32⟩
  | 114 => ⟨S1x32, .f32⟩
  | 115 => ⟨S100000x32, .f32⟩
  | 116 => ⟨S100000x32, .f32⟩
  | 117 => ⟨S100000x1, .f32⟩
  | 118 => ⟨S_, .i32⟩
  | 119 => ⟨S3300000, .i32⟩
  | 120 => ⟨S3300000, .i1⟩
  | 121 => ⟨S_, .i32⟩
  | 122 => ⟨S3300000, .i32⟩
  | 123 => ⟨S3300000, .i32⟩
  | 124 => ⟨S3300000, .i32⟩
  | 125 => ⟨S3300000x1, .i32⟩
  | 126 => ⟨S3300000x1, .f32⟩
  | 127 => ⟨S3300000x1, .f32⟩
  | _ => ⟨S100000x54, .f32⟩

abbrev hbmTy0_1 (i : Nat) : BufTy := match i % 128 with
  | 0 => ⟨S_, .f32⟩
  | 1 => ⟨S100000x1, .f32⟩
  | 2 => ⟨S3300000x1, .i32⟩
  | 3 => ⟨S100000x1, .f32⟩
  | 4 => ⟨S1x1, .f32⟩
  | 5 => ⟨S100000x1, .f32⟩
  | 6 => ⟨S100000x1, .f32⟩
  | 7 => ⟨S100000x1, .f32⟩
  | 8 => ⟨S100000x1, .f32⟩
  | 9 => ⟨S_, .f32⟩
  | 10 => ⟨S100000x1, .f32⟩
  | 11 => ⟨S100000x1, .f32⟩
  | 12 => ⟨S_, .f32⟩
  | 13 => ⟨S100000x1, .f32⟩
  | 14 => ⟨S100000x1, .f32⟩
  | _ => ⟨S100000x54, .f32⟩

abbrev hbmTy (i : Nat) : BufTy := match i / 128 with
  | 0 => hbmTy0_0 i
  | 1 => hbmTy0_1 i
  | _ => ⟨S100000x54, .f32⟩

abbrev bufTy : (tb : Table) → Fin (tcTables nBuf tb) → BufTy
  | .hbm, ⟨i, _⟩ => hbmTy i
  | _, _ => ⟨S100000x54, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call2_cst : Ref sig .tc := ⟨.hbm, 95, rfl⟩
abbrev main_call2_v0 : Ref sig .tc := ⟨.hbm, 96, rfl⟩
abbrev main_v66 : Ref sig .tc := ⟨.hbm, 97, rfl⟩
abbrev main_v67 : Ref sig .tc := ⟨.hbm, 98, rfl⟩
abbrev main_c_13 : Ref sig .tc := ⟨.hbm, 99, rfl⟩
abbrev main_v68 : Ref sig .tc := ⟨.hbm, 100, rfl⟩
abbrev main_v69 : Ref sig .tc := ⟨.hbm, 101, rfl⟩
abbrev main_c_14 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_15 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_16 : Ref sig .tc := ⟨.hbm, 118, rfl⟩
abbrev main_v84 : Ref sig .tc := ⟨.hbm, 119, rfl⟩
abbrev main_v85 : Ref sig .tc := ⟨.hbm, 120, rfl⟩
abbrev main_c_17 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_18 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_19 : Ref sig .tc := ⟨.hbm, 137, rfl⟩
abbrev main_v100 : Ref sig .tc := ⟨.hbm, 138, rfl⟩
abbrev main_v101 : Ref sig .tc := ⟨.hbm, 139, rfl⟩
abbrev main_cst_20 : Ref sig .tc := ⟨.hbm, 140, rfl⟩
abbrev main_v102 : Ref sig .tc := ⟨.hbm, 141, rfl⟩
abbrev main_v103 : Ref sig .tc := ⟨.hbm, 142, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x54_S54x16_S100000x16_1_0_0_1_n_n_wf : DotDims.WF S100000x54 S54x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x32_S100000x32_1_0_0_1_n_n_wf : DotDims.WF S100000x16 S16x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x32_S100000x32_1_0_0_1_n_n_wf : DotDims.WF S100000x32 S32x32 S100000x32 [1] [0] [0] [1] [] []
  dot_S100000x32_S32x1_S100000x1_1_0_0_1_n_n_wf : DotDims.WF S100000x32 S32x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x54_S54x16_S100000x16_1_0_0_1_n_n : DotDims S100000x54 S54x16 S100000x16 where
  lhsContracting := [1]
  rhsContracting := [0]
  lhsNonContracting := [0]
  rhsNonContracting := [1]
  lhsBatch := []
  rhsBatch := []
  wf := dot_S100000x54_S54x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.KernelRun.lean ====
/-
  The idealized kernel's run with its result named.

  @main is thirteen segments: stretches of host operations and the four dense-projection regions. Each segment leaves
  the core's buffers at the next boundary's contents, so after the last one every buffer — the result buffer too, not
  only the argument arrays — holds the last boundary's contents. This module states that for the result buffer: every
  weakly fair execution terminates, nothing faults, the result ends at the last boundary's contents of its buffer and
  the arguments end as launched.
-/
import proofs.«144811_j2748779070162_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the thirteen segments from the launch memory: the final state has every unscoped buffer at the last
    boundary's contents, read here at the result buffer and at the ten argument arrays (which no segment writes). -/
theorem run : θ_run defs (onTc (τ := τ) (main (F := F))) ⟨m, fun _ => 0, ρ⟩ (fun r => ∀ c : Dev nD,
      r.2.mem ((c.tc : Thread nD τ).loc main_v103) = W13 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v103 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.Result

end
-- ==== Proof.RefKept.lean ====
/-
  The reference never writes an argument: after its 133 operations each argument array holds its launch contents.
-/
import proofs.«144811_j2748779070162_1_alg».proof.Proof.RefRun
import Idealize.ShloMosaic.Lib.StableHlo.Run

noncomputable section

namespace Cert.ReferenceIdeal.Pieces

open Cert.ReferenceIdeal Idealize.ShloMosaic Idealize.ShloMosaic.TcCoe Idealize.SL.Sem Idealize.ShloMosaic.StableHlo

variable {F : FTy → Type} [FloatOps F]

set_option maxHeartbeats 4000000 in
set_option maxRecDepth 8192 in
/-- Argument 0 is no operation's result. -/
theorem kept_arg0 (V : Valuation τ sig (Elt F)) :
    after (ops (F := F)) V (Proc.devRef .tc main_arg0) = V (Proc.devRef .tc main_arg0) := by
  simp only [ops, ops_prep, ops_layer1, ops_layer2, ops_layer3, ops_tail, op_dot1, op_dot2, op_dot3, op_dot4,
    List.cons_append, List.nil_append]
  after_results_simp <;> rfl

set_option maxHeartbeats 4000000 in
set_option maxRecDepth 8192 in
/-- Argument 1 is no operation's result. -/
theorem kept_arg1 (V : Valuation τ sig (Elt F)) :
    after (ops (F := F)) V (Proc.devRef .tc main_arg1) = V (Proc.devRef .tc main_arg1) := by
  simp only [ops, ops_prep, ops_layer1, ops_layer2, ops_layer3, ops_tail, op_dot1, op_dot2, op_dot3, op_dot4,
    List.cons_append, List.nil_append]
  after_results_simp <;> rfl

set_option maxHeartbeats 4000000 in
set_option maxRecDepth 8192 in
/-- Argument 2 is no operation's result. -/
theorem kept_arg2 (V : Valuation τ sig (Elt F)) :
    after (ops (F := F)) V (Proc.devRef .tc main_arg2) = V (Proc.devRef .tc main_arg2) := by
  simp only [ops, ops_prep, ops_layer1, ops_layer2, ops_layer3, ops_tail, op_dot1, op_dot2, op_dot3, op_dot4,
    List.cons_append, List.nil_append]
  after_results_simp <;> rfl

set_option maxHeartbeats 4000000 in
set_option maxRecDepth 8192 in
/-- Argument 3 is no operation's result. -/
theorem kept_arg3 (V : Valuation τ sig (Elt F)) :
    after (ops (F := F)) V (Proc.devRef .tc main_arg3) = V (Proc.devRef .tc main_arg3) := by
  simp only [ops, ops_prep, ops_layer1, ops_layer2, ops_layer3, ops_tail, op_dot1, op_dot2, op_dot3, op_dot4,
    List.cons_append, List.nil_append]
  after_results_simp <;> rfl

set_option maxHeartbeats 4000000 in
set_option maxRecDepth 8192 in
/-- Argument 4 is no operation's result. -/
theorem kept_arg4 (V : Valuation τ sig (Elt F)) :
    after (ops (F := F)) V (Proc.devRef .tc main_arg4) = V (Proc.devRef .tc main_arg4) := by
  simp only [ops, ops_prep, ops_layer1, ops_layer2, ops_layer3, ops_tail, op_dot1, op_dot2, op_dot3, op_dot4,
    List.cons_append, List.nil_append]
  after_results_simp <;> rfl

set_option maxHeartbeats 4000000 in
set_option maxRecDepth 8192 in
/-- Argument 5 is no operation's result. -/
theorem kept_arg5 (V : Valuation τ sig (Elt F)) :
    after (ops (F := F)) V (Proc.devRef .tc main_arg5) = V (Proc.devRef .tc main_arg5) := by
  simp only [ops, ops_prep, ops_layer1, ops_layer2, ops_layer3, ops_tail, op_dot1, op_dot2, op_dot3, op_dot4,
    List.cons_append, List.nil_append]
  after_results_simp <;> rfl

set_option maxHeartbeats 4000000 in
set_option maxRecDepth 8192 in
/-- Argument 6 is no operation's result. -/
theorem kept_arg6 (V : Valuation τ sig (Elt F)) :
    after (ops (F := F)) V (Proc.devRef .tc main_arg6) = V (Proc.devRef .tc main_arg6) := by
  simp only [ops, ops_prep, ops_layer1, ops_layer2, ops_layer3, ops_tail, op_dot1, op_dot2, op_dot3, op_dot4,
    List.cons_append, List.nil_append]
  after_results_simp <;> rfl

set_option maxHeartbeats 4000000 in
set_option maxRecDepth 8192 in
/-- Argument 7 is no operation's result. -/
theorem kept_arg7 (V : Valuation τ sig (Elt F)) :
    after (ops (F := F)) V (Proc.devRef .tc main_arg7) = V (Proc.devRef .tc main_arg7) := by
  simp only [ops, ops_prep, ops_layer1, ops_layer2, ops_layer3, ops_tail, op_dot1, op_dot2, op_dot3, op_dot4,
    List.cons_append, List.nil_append]
  after_results_simp <;> rfl

set_option maxHeartbeats 4000000 in
set_option maxRecDepth 8192 in
/-- Argument 8 is no operation's result. -/
theorem kept_arg8 (V : Valuation τ sig (Elt F)) :
    after (ops (F := F)) V (Proc.devRef .tc main_arg8) = V (Proc.devRef .tc main_arg8) := by
  simp only [ops, ops_prep, ops_layer1, ops_layer2, ops_layer3, ops_tail, op_dot1, op_dot2, op_dot3, op_dot4,
    List.cons_append, List.nil_append]
  after_results_simp <;> rfl

set_option maxHeartbeats 4000000 in
set_option maxRecDepth 8192 in
/-- Argument 9 is no operation's result. -/
theorem kept_arg9 (V : Valuation τ sig (Elt F)) :
    after (ops (F := F)) V (Proc.devRef .tc main_arg9) = V (Proc.devRef .tc main_arg9) := by
  simp only [ops, ops_prep, ops_layer1, ops_layer2, ops_layer3, ops_tail, op_dot1, op_dot2, op_dot3, op_dot4,
    List.cons_append, List.nil_append]
  after_results_simp <;> rfl

end Cert.ReferenceIdeal.Pieces

end
-- ==== Proof.StageTactic.lean ====
/-
  Reading a stretch of host operations down to the contents it starts from.

  The library's one-pass evaluation rewrites every operation's result at its own buffer and skips it at any other; it
  cannot rewrite inside the operand list of a concatenation (the list's entries are pairs of a shape and an array of that
  shape). The rewriting loop below finishes those places one rewrite at a time; run after the one-pass evaluation it has
  only the few operations that feed a concatenation left to do.
-/
import Idealize.ShloMosaic.Lib.StableHlo.Run

namespace Cert.Stages

open Idealize.ShloMosaic.StableHlo

/-- The library's rewriting loop over the operations' result lemmas (its `after_results` without the opening unfolding
    of the fold, which the one-pass evaluation has already done). -/
macro "finish_results" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-- One stretch read on both sides of an equation: the one-pass evaluation, then the loop for what it left. -/
macro "read_stretch" : tactic => `(tactic| (after_results_simp; try finish_results))

end Cert.Stages
-- ==== Proof.StagePrep.lean ====
/-
  The edge data, read on both programs.

  Before the first dense projection both programs compute, from the edge index array alone, the source and destination
  lists with the self loops appended, the degree of every node (a scatter-add of ones), its inverse square root where the
  degree is positive, and the per-edge norm dinv[src] · dinv[dst]. The operations are the same on both sides, so from
  launch contents that agree on the arguments the three arrays later stretches read — the two index lists and the norm —
  agree, and the other arguments are untouched.
-/
import proofs.«144811_j2748779070162_1_alg».proof.Proof.Gen.KernelIdeal.Frame
import proofs.«144811_j2748779070162_1_alg».proof.Proof.RefRun
import proofs.«144811_j2748779070162_1_alg».proof.Proof.StageTactic

import Idealize.ShloMosaic.Lib.StableHlo.Run
import Idealize.ShloMosaic.PureOps.Ideal

noncomputable section

namespace Cert.Stages

open Idealize.ShloMosaic Idealize.ShloMosaic.TcCoe Idealize.SL.Sem Idealize.ShloMosaic.StableHlo

set_option maxHeartbeats 8000000 in
/-- From contents agreeing on the arguments, after the edge-data stretch the index lists, the norm and the remaining arguments agree. -/
theorem prep_agree (Vk : Valuation Cert.KernelIdeal.τ Cert.KernelIdeal.sig (Elt Ideal)) (Vr : Valuation Cert.ReferenceIdeal.τ Cert.ReferenceIdeal.sig (Elt Ideal))
    (h_main_arg0 : Vr (Proc.devRef .tc Cert.ReferenceIdeal.main_arg0) = Vk (Proc.devRef .tc Cert.KernelIdeal.main_arg0))
    (h_main_arg1 : Vr (Proc.devRef .tc Cert.ReferenceIdeal.main_arg1) = Vk (Proc.devRef .tc Cert.KernelIdeal.main_arg1))
    (h_main_arg2 : Vr (Proc.devRef .tc Cert.ReferenceIdeal.main_arg2) = Vk (Proc.devRef .tc Cert.KernelIdeal.main_arg2))
    (h_main_arg3 : Vr (Proc.devRef .tc Cert.ReferenceIdeal.main_arg3) = Vk (Proc.devRef .tc Cert.KernelIdeal.main_arg3))
    (h_main_arg4 : Vr (Proc.devRef .tc Cert.ReferenceIdeal.main_arg4) = Vk (Proc.devRef .tc Cert.KernelIdeal.main_arg4))
    (h_main_arg5 : Vr (Proc.devRef .tc Cert.ReferenceIdeal.main_arg5) = Vk (Proc.devRef .tc Cert.KernelIdeal.main_arg5))
    (h_main_arg6 : Vr (Proc.devRef .tc Cert.ReferenceIdeal.main_arg6) = Vk (Proc.devRef .tc Cert.KernelIdeal.main_arg6))
    (h_main_arg7 : Vr (Proc.devRef .tc Cert.ReferenceIdeal.main_arg7) = Vk (Proc.devRef .tc Cert.KernelIdeal.main_arg7))
    (h_main_arg8 : Vr (Proc.devRef .tc Cert.ReferenceIdeal.main_arg8) = Vk (Proc.devRef .tc Cert.KernelIdeal.main_arg8))
    (h_main_arg9 : Vr (Proc.devRef .tc Cert.ReferenceIdeal.main_arg9) = Vk (Proc.devRef .tc Cert.KernelIdeal.main_arg9)) :
    after (Cert.ReferenceIdeal.Pieces.ops_prep (F := Ideal)) Vr (Proc.devRef .tc Cert.ReferenceIdeal.main_v5)
        = after (Cert.KernelIdeal.Gen.hostOps0_2 (F := Ideal)) (after (Cert.KernelIdeal.Gen.hostOps0_1 (F := Ideal)) (after (Cert.KernelIdeal.Gen.hostOps0 (F := Ideal)) (Vk))) (Proc.devRef .tc Cert.KernelIdeal.main_v5)
    ∧ after (Cert.ReferenceIdeal.Pieces.ops_prep (F := Ideal)) Vr (Proc.devRef .tc Cert.ReferenceIdeal.main_v6)
        = after (Cert.KernelIdeal.Gen.hostOps0_2 (F := Ideal)) (after (Cert.KernelIdeal.Gen.hostOps0_1 (F := Ideal)) (after (Cert.KernelIdeal.Gen.hostOps0 (F := Ideal)) (Vk))) (Proc.devRef .tc Cert.KernelIdeal.main_v6)
    ∧ after (Cert.ReferenceIdeal.Pieces.ops_prep (F := Ideal)) Vr (Proc.devRef .tc Cert.ReferenceIdeal.main_v32)
        = after (Cert.KernelIdeal.Gen.hostOps0_2 (F := Ideal)) (after (Cert.KernelIdeal.Gen.hostOps0_1 (F := Ideal)) (after (Cert.KernelIdeal.Gen.hostOps0 (F := Ideal)) (Vk))) (Proc.devRef .tc Cert.KernelIdeal.main_v32)
    ∧ after (Cert.ReferenceIdeal.Pieces.ops_prep (F := Ideal)) Vr (Proc.devRef .tc Cert.ReferenceIdeal.main_arg0)
        = after (Cert.KernelIdeal.Gen.hostOps0_2 (F := Ideal)) (after (Cert.KernelIdeal.Gen.hostOps0_1 (F := Ideal)) (after (Cert.KernelIdeal.Gen.hostOps0 (F := Ideal)) (Vk))) (Proc.devRef .tc Cert.KernelIdeal.main_arg0)
    ∧ after (Cert.ReferenceIdeal.Pieces.ops_prep (F := Ideal)) Vr (Proc.devRef .tc Cert.ReferenceIdeal.main_arg2)
        = after (Cert.KernelIdeal.Gen.hostOps0_2 (F := Ideal)) (after (Cert.KernelIdeal.Gen.hostOps0_1 (F := Ideal)) (after (Cert.KernelIdeal.Gen.hostOps0 (F := Ideal)) (Vk))) (Proc.devRef .tc Cert.KernelIdeal.main_arg2)
    ∧ after (Cert.ReferenceIdeal.Pieces.ops_prep (F := Ideal)) Vr (Proc.devRef .tc Cert.ReferenceIdeal.main_arg3)
        = after (Cert.KernelIdeal.Gen.hostOps0_2 (F := Ideal)) (after (Cert.KernelIdeal.Gen.hostOps0_1 (F := Ideal)) (after (Cert.KernelIdeal.Gen.hostOps0 (F := Ideal)) (Vk))) (Proc.devRef .tc Cert.KernelIdeal.main_arg3)
    ∧ after (Cert.ReferenceIdeal.Pieces.ops_prep (F := Ideal)) Vr (Proc.devRef .tc Cert.ReferenceIdeal.main_arg4)
        = after (Cert.KernelIdeal.Gen.hostOps0_2 (F := Ideal)) (after (Cert.KernelIdeal.Gen.hostOps0_1 (F := Ideal)) (after (Cert.KernelIdeal.Gen.hostOps0 (F := Ideal)) (Vk))) (Proc.devRef .tc Cert.KernelIdeal.main_arg4)
    ∧ after (Cert.ReferenceIdeal.Pieces.ops_prep (F := Ideal)) Vr (Proc.devRef .tc Cert.ReferenceIdeal.main_arg5)
        = after (Cert.KernelIdeal.Gen.hostOps0_2 (F := Ideal)) (after (Cert.KernelIdeal.Gen.hostOps0_1 (F := Ideal)) (after (Cert.KernelIdeal.Gen.hostOps0 (F := Ideal)) (Vk))) (Proc.devRef .tc Cert.KernelIdeal.main_arg5)
    ∧ after (Cert.ReferenceIdeal.Pieces.ops_prep (F := Ideal)) Vr (Proc.devRef .tc Cert.ReferenceIdeal.main_arg6)
        = after (Cert.KernelIdeal.Gen.hostOps0_2 (F := Ideal)) (after (Cert.KernelIdeal.Gen.hostOps0_1 (F := Ideal)) (after (Cert.KernelIdeal.Gen.hostOps0 (F := Ideal)) (Vk))) (Proc.devRef .tc Cert.KernelIdeal.main_arg6)
    ∧ after (Cert.ReferenceIdeal.Pieces.ops_prep (F := Ideal)) Vr (Proc.devRef .tc Cert.ReferenceIdeal.main_arg7)
        = after (Cert.KernelIdeal.Gen.hostOps0_2 (F := Ideal)) (after (Cert.KernelIdeal.Gen.hostOps0_1 (F := Ideal)) (after (Cert.KernelIdeal.Gen.hostOps0 (F := Ideal)) (Vk))) (Proc.devRef .tc Cert.KernelIdeal.main_arg7)
    ∧ after (Cert.ReferenceIdeal.Pieces.ops_prep (F := Ideal)) Vr (Proc.devRef .tc Cert.ReferenceIdeal.main_arg8)
        = after (Cert.KernelIdeal.Gen.hostOps0_2 (F := Ideal)) (after (Cert.KernelIdeal.Gen.hostOps0_1 (F := Ideal)) (after (Cert.KernelIdeal.Gen.hostOps0 (F := Ideal)) (Vk))) (Proc.devRef .tc Cert.KernelIdeal.main_arg8)
    ∧ after (Cert.ReferenceIdeal.Pieces.ops_prep (F := Ideal)) Vr (Proc.devRef .tc Cert.ReferenceIdeal.main_arg9)
        = after (Cert.KernelIdeal.Gen.hostOps0_2 (F := Ideal)) (after (Cert.KernelIdeal.Gen.hostOps0_1 (F := Ideal)) (after (Cert.KernelIdeal.Gen.hostOps0 (F := Ideal)) (Vk))) (Proc.devRef .tc Cert.KernelIdeal.main_arg9) := by
  refine ⟨?_, ?_, ?_, ?_, ?_, ?_, ?_, ?_, ?_, ?_, ?_, ?_⟩
  · dsimp only [Cert.ReferenceIdeal.Pieces.ops_prep, Cert.KernelIdeal.Gen.hostOps0, Cert.KernelIdeal.Gen.hostOps0_1, Cert.KernelIdeal.Gen.hostOps0_2]
    read_stretch
    rw [h_main_arg1]
    rfl
  · dsimp only [Cert.ReferenceIdeal.Pieces.ops_prep, Cert.KernelIdeal.Gen.hostOps0, Cert.KernelIdeal.Gen.hostOps0_1, Cert.KernelIdeal.Gen.hostOps0_2]
    read_stretch
    rw [h_main_arg1]
    rfl
  · dsimp only [Cert.ReferenceIdeal.Pieces.ops_prep, Cert.KernelIdeal.Gen.hostOps0, Cert.KernelIdeal.Gen.hostOps0_1, Cert.KernelIdeal.Gen.hostOps0_2]
    read_stretch
    rw [h_main_arg1]
    rfl
  · dsimp only [Cert.ReferenceIdeal.Pieces.ops_prep, Cert.KernelIdeal.Gen.hostOps0, Cert.KernelIdeal.Gen.hostOps0_1, Cert.KernelIdeal.Gen.hostOps0_2]
    read_stretch
    exact h_main_arg0
  · dsimp only [Cert.ReferenceIdeal.Pieces.ops_prep, Cert.KernelIdeal.Gen.hostOps0, Cert.KernelIdeal.Gen.hostOps0_1, Cert.KernelIdeal.Gen.hostOps0_2]
    read_stretch
    exact h_main_arg2
  · dsimp only [Cert.ReferenceIdeal.Pieces.ops_prep, Cert.KernelIdeal.Gen.hostOps0, Cert.KernelIdeal.Gen.hostOps0_1, Cert.KernelIdeal.Gen.hostOps0_2]
    read_stretch
    exact h_main_arg3
  · dsimp only [Cert.ReferenceIdeal.Pieces.ops_prep, Cert.KernelIdeal.Gen.hostOps0, Cert.KernelIdeal.Gen.hostOps0_1, Cert.KernelIdeal.Gen.hostOps0_2]
    read_stretch
    exact h_main_arg4
  · dsimp only [Cert.ReferenceIdeal.Pieces.ops_prep, Cert.KernelIdeal.Gen.hostOps0, Cert.KernelIdeal.Gen.hostOps0_1, Cert.KernelIdeal.Gen.hostOps0_2]
    read_stretch
    exact h_main_arg5
  · dsimp only [Cert.ReferenceIdeal.Pieces.ops_prep, Cert.KernelIdeal.Gen.hostOps0, Cert.KernelIdeal.Gen.hostOps0_1, Cert.KernelIdeal.Gen.hostOps0_2]
    read_stretch
    exact h_main_arg6
  · dsimp only [Cert.ReferenceIdeal.Pieces.ops_prep, Cert.KernelIdeal.Gen.hostOps0, Cert.KernelIdeal.Gen.hostOps0_1, Cert.KernelIdeal.Gen.hostOps0_2]
    read_stretch
    exact h_main_arg7
  · dsimp only [Cert.ReferenceIdeal.Pieces.ops_prep, Cert.KernelIdeal.Gen.hostOps0, Cert.KernelIdeal.Gen.hostOps0_1, Cert.KernelIdeal.Gen.hostOps0_2]
    read_stretch
    exact h_main_arg8
  · dsimp only [Cert.ReferenceIdeal.Pieces.ops_prep, Cert.KernelIdeal.Gen.hostOps0, Cert.KernelIdeal.Gen.hostOps0_1, Cert.KernelIdeal.Gen.hostOps0_2]
    read_stretch
    exact h_main_arg9

end Cert.Stages

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.LibRowTiledDot.lean ====
/-
  A block of rows of a matrix product is the product of that block of rows.

  A kernel that tiles the rows of the left factor multiplies, at each tile, a block of b rows [b, K] (narrowed to bf16,
  which changes nothing on the extended reals) by the whole right factor [K, N] into a zero accumulator. Entry (p, q) of
  that block product is the sum over k of x0 (p, k) · x1 (k, q); entry (g, q) of the host's product of the whole matrices
  is the sum over k of A (g, k) · B (k, q). When row p of the block is row g of the whole left factor and the right
  factors agree, the two sums are the same sum, term by term: no finiteness is needed, and no reordering.
-/
import Idealize.ShloMosaic.Lib.ValueIdx
import Idealize.ShloMosaic.Lib.Pipeline.Value
import Idealize.ShloMosaic.PureOps.Ideal.Laws
import proofs.«144811_j2748779070162_1_alg».proof.Proof.LibPlainDot
import proofs.«144811_j2748779070162_1_alg».proof.Proof.LibHostDot

noncomputable section

namespace Cert.Lib.RowTiledDot

open Idealize.ShloMosaic Idealize.ShloMosaic.ValueIdx

variable {M K N b : ℕ}

/-- Entry (p, q) of the kernel's product of a block of rows is entry (g, q) of the host's product of the whole
    matrices, when row p of the block is row g of the whole left factor (h0) and column q of the block's right factor
    is column q of the whole right factor (h1). -/
theorem block_entry_eq_host (h : FTy.bits .bf16 < FTy.bits .f32)
    (A : FVec Ideal ⟨2, ![M, K]⟩ .f32) (B : FVec Ideal ⟨2, ![K, N]⟩ .f32)
    (x0 : FVec Ideal ⟨2, ![b, K]⟩ .f32) (x1 : FVec Ideal ⟨2, ![K, N]⟩ .f32)
    (p : Fin b) (q : Fin N) (g : Fin M)
    (h0 : ∀ k : Fin K, x0 (ix2 p k) = A (ix2 g k)) (h1 : ∀ k : Fin K, x1 (ix2 k q) = B (ix2 k q)) :
    matmul (DotDims.plain b K N) none (truncf .bf16 x0 h) (truncf .bf16 x1 h)
        (constant (F := Ideal) ⟨2, ![b, N]⟩ .f32 0x00000000#32) (ix2 p q)
      = Host.dotGeneral (F := Ideal) (DotDims.plain M K N) none A B (ix2 g q) := by
  rw [Cert.PlainDot.matmul_zero_plain_apply, Cert.HostDot.dotGeneral_plain_apply]
  refine Finset.sum_congr rfl fun k _ => ?_
  show x0 (ix2 p k) * x1 (ix2 k q) = _
  rw [h0 k, h1 k]

end Cert.Lib.RowTiledDot

end
-- ==== Proof.Dense0.lean ====
/-
  The first dense projection, read as one whole-array function.

  The region tiles the 100000 rows of its left operand [100000, 54] into ten blocks of 10000 rows; at tile t the body
  multiplies rows 10000·t … 10000·t + 9999 (narrowed to bf16, the identity on the extended reals) by the whole right
  operand [54, 16] into a zero accumulator and writes the [10000, 16] block back as rows 10000·t … of the result. An entry of a
  product reads one row of the left factor, so block t of the result is block t of the product of the whole matrices,
  and the ten blocks cover the result array: after the region it holds the host's plain product of the two operands
  as the region found them.
-/
import proofs.«144811_j2748779070162_1_alg».proof.Proof.Gen.KernelIdeal.Frame
import Idealize.ShloMosaic.Lib.ValueIdx
import Idealize.ShloMosaic.Lib.Pipeline.Value
import proofs.«144811_j2748779070162_1_alg».proof.Proof.LibRowTiledDot

noncomputable section

open Idealize.ShloMosaic Idealize.ShloMosaic.TcCoe Idealize.ShloMosaic.ValueIdx Idealize.SL.Sem
open Idealize.ShloMosaic.Pipeline (Dat)

namespace Cert.KernelIdeal.Dense0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of the whole operands, as the host spells it. -/
abbrev whole (A : FVec Ideal S100000x54 .f32) (B : FVec Ideal S54x16 .f32) : FVec Ideal S100000x16 .f32 :=
  Host.dotGeneral (F := Ideal) (DotDims.plain 100000 54 16) none A B

/-- The printed index maps, decided over the ten tiles: the left operand's and the result's row block is the tile's
    number, every other block index is 0. -/
theorem tile_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the left operand's block at tile t is row 10000·t + p of the operand. -/
theorem left_block_apply (c : Dev nD) (t : Fin cfg0.N) (p : Fin 10000) (k : Fin 54) (g : Fin 100000)
    (hg : g.val = t.val * 10000 + p.val) :
    (iblk0 V c 0 t : Vec Ideal S10000x54 .f32) (ix2 p k) = (V c main_arg0 : FVec Ideal S100000x54 .f32) (ix2 g k) := by
  obtain ⟨e00, e01, -, -, -, -⟩ := tile_index t
  unfold iblk0
  rw [View.read_apply]
  show V c main_arg0 _ = V c main_arg0 _
  refine congrArg _ ?_
  funext a
  apply Fin.ext
  match a with
  | ⟨0, _⟩ => show win0_0.index t (0 : Fin 2) * 10000 + 1 * p.val = g.val; omega
  | ⟨1, _⟩ => show win0_0.index t (1 : Fin 2) * 54 + 1 * k.val = k.val; omega

/-- The right operand's block at every tile is the whole right operand. -/
theorem right_block_apply (c : Dev nD) (t : Fin cfg0.N) (k : Fin 54) (q : Fin 16) :
    (iblk0 V c 1 t : Vec Ideal S54x16 .f32) (ix2 k q) = (V c main_arg2 : FVec Ideal S54x16 .f32) (ix2 k q) := by
  obtain ⟨-, -, e10, e11, -, -⟩ := tile_index t
  unfold iblk0
  rw [View.read_apply]
  show V c main_arg2 _ = V c main_arg2 _
  refine congrArg _ ?_
  funext a
  apply Fin.ext
  match a with
  | ⟨0, _⟩ => show win0_1.index t (0 : Fin 2) * 54 + 1 * k.val = k.val; omega
  | ⟨1, _⟩ => show win0_1.index t (1 : Fin 2) * 16 + 1 * q.val = q.val; omega

/-- What tile t writes back is block t of the product of the whole operands. -/
theorem flushed_eq (c : Dev nD) (t : Fin cfg0.N) :
    (dat0 V c).flushed 2 t = ((cfg0.win 2).blk t).view.read (Elt Ideal) (whole (V c main_arg0) (V c main_arg2)) := by
  show (cfg0.win 2).cut (grid0.coords t) ((dat0 V c).after 2 t) = _
  rw [after0_2 V c t]
  unfold out0_2
  rw [View.canon_unit_zero hz]
  simp only [View.ld_unit_zero (S := S10000x54) hz, View.ld_unit_zero (S := S54x16) hz]
  obtain ⟨-, -, -, -, e20, e21⟩ := tile_index t
  have hN : cfg0.N = 10 := N_0
  have ht : t.val < 10 := by have := t.isLt; omega
  funext y
  obtain ⟨p, q, rfl⟩ : ∃ (p : Fin 10000) (q : Fin 16), y = ix2 p q := ⟨y 0, y 1, eq_ix2 y⟩
  have hp : p.val < 10000 := p.isLt
  have hg : t.val * 10000 + p.val < 100000 := by omega
  show k0_pay1 (iblk0 V c 0 t) (iblk0 V c 1 t) (ix2 p q)
    = whole (V c main_arg0) (V c main_arg2) (((cfg0.win 2).blk t).view.emb (ix2 p q))
  have he : ((cfg0.win 2).blk t).view.emb (ix2 p q) = ix2 (⟨t.val * 10000 + p.val, hg⟩ : Fin 100000) q := by
    funext a
    apply Fin.ext
    match a with
    | ⟨0, _⟩ => show win0_2.index t (0 : Fin 2) * 10000 + 1 * p.val = t.val * 10000 + p.val; omega
    | ⟨1, _⟩ => show win0_2.index t (1 : Fin 2) * 16 + 1 * q.val = q.val; omega
  rw [he]
  exact Cert.Lib.RowTiledDot.block_entry_eq_host bitsLt_bf16_f32 (V c main_arg0) (V c main_arg2)
    (iblk0 V c 0 t) (iblk0 V c 1 t) p q ⟨_, hg⟩
    (fun k => left_block_apply V c t p k ⟨_, hg⟩ rfl) (fun k => right_block_apply V c t k q)

/-- An index of the result array is in tile t's block iff each coordinate is in the block's range on its axis. -/
theorem mem_block (t : Fin cfg0.N) (i : S100000x16.Idx) :
    i ∈ ((cfg0.win 2).blk t).view.set ↔ ∀ a : Fin 2, win0_2.index t a * S10000x16.size a ≤ (i a).val
      ∧ (i a).val < win0_2.index t a * S10000x16.size a + S10000x16.size a := by
  show i ∈ ((View.whole main_v33).slice (win0_2.rect t)).set ↔ _
  rw [View.set_slice_whole, Rect.mem_set_unit]
  exact Iff.rfl

/-- After the region the result array holds the product of the whole operands as the region found them: row r is in
    the block of tile r / 10000. -/
theorem result_array (c : Dev nD) : (dat0 V c).arrAt 2 cfg0.N = whole (V c main_arg0) (V c main_arg2) :=
  (dat0 V c).arrAt_eq_of_cover 2 (whole (V c main_arg0) (V c main_arg2)) (fun t _ => flushed_eq V c t) fun i => by
    have hi0 : (i 0).val < 100000 := (i 0).isLt
    have hi1 : (i 1).val < 16 := (i 1).isLt
    have hN : cfg0.N = 10 := N_0
    obtain ⟨t, ht⟩ : ∃ t : Fin cfg0.N, t.val = (i 0).val / 10000 := ⟨⟨(i 0).val / 10000, by omega⟩, rfl⟩
    obtain ⟨-, -, -, -, e20, e21⟩ := tile_index t
    refine ⟨t, flush0_2 t, ?_⟩
    rw [mem_block]
    intro a
    match a with
    | ⟨0, _⟩ =>
      show win0_2.index t (0 : Fin 2) * 10000 ≤ (i 0).val ∧ (i 0).val < win0_2.index t (0 : Fin 2) * 10000 + 10000
      omega
    | ⟨1, _⟩ =>
      show win0_2.index t (1 : Fin 2) * 16 ≤ (i 1).val ∧ (i 1).val < win0_2.index t (1 : Fin 2) * 16 + 16
      omega

end Cert.KernelIdeal.Dense0

end
-- ==== Proof.Dense1.lean ====
/-
  The second dense projection, read as one whole-array function.

  The region tiles the 100000 rows of its left operand [100000, 16] into ten blocks of 10000 rows; at tile t the body
  multiplies rows 10000·t … 10000·t + 9999 (narrowed to bf16, the identity on the extended reals) by the whole right
  operand [16, 32] into a zero accumulator and writes the [10000, 32] block back as rows 10000·t … of the result. An entry of a
  product reads one row of the left factor, so block t of the result is block t of the product of the whole matrices,
  and the ten blocks cover the result array: after the region it holds the host's plain product of the two operands
  as the region found them.
-/
import proofs.«144811_j2748779070162_1_alg».proof.Proof.Gen.KernelIdeal.Frame
import Idealize.ShloMosaic.Lib.ValueIdx
import Idealize.ShloMosaic.Lib.Pipeline.Value
import proofs.«144811_j2748779070162_1_alg».proof.Proof.LibRowTiledDot

noncomputable section

open Idealize.ShloMosaic Idealize.ShloMosaic.TcCoe Idealize.ShloMosaic.ValueIdx Idealize.SL.Sem
open Idealize.ShloMosaic.Pipeline (Dat)

namespace Cert.KernelIdeal.Dense1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of the whole operands, as the host spells it. -/
abbrev whole (A : FVec Ideal S100000x16 .f32) (B : FVec Ideal S16x32 .f32) : FVec Ideal S100000x32 .f32 :=
  Host.dotGeneral (F := Ideal) (DotDims.plain 100000 16 32) none A B

/-- The printed index maps, decided over the ten tiles: the left operand's and the result's row block is the tile's
    number, every other block index is 0. -/
theorem tile_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the left operand's block at tile t is row 10000·t + p of the operand. -/
theorem left_block_apply (c : Dev nD) (t : Fin cfg1.N) (p : Fin 10000) (k : Fin 16) (g : Fin 100000)
    (hg : g.val = t.val * 10000 + p.val) :
    (iblk1 V c 0 t : Vec Ideal S10000x16 .f32) (ix2 p k) = (V c main_v49 : FVec Ideal S100000x16 .f32) (ix2 g k) := by
  obtain ⟨e00, e01, -, -, -, -⟩ := tile_index t
  unfold iblk1
  rw [View.read_apply]
  show V c main_v49 _ = V c main_v49 _
  refine congrArg _ ?_
  funext a
  apply Fin.ext
  match a with
  | ⟨0, _⟩ => show win1_0.index t (0 : Fin 2) * 10000 + 1 * p.val = g.val; omega
  | ⟨1, _⟩ => show win1_0.index t (1 : Fin 2) * 16 + 1 * k.val = k.val; omega

/-- The right operand's block at every tile is the whole right operand. -/
theorem right_block_apply (c : Dev nD) (t : Fin cfg1.N) (k : Fin 16) (q : Fin 32) :
    (iblk1 V c 1 t : Vec Ideal S16x32 .f32) (ix2 k q) = (V c main_arg4 : FVec Ideal S16x32 .f32) (ix2 k q) := by
  obtain ⟨-, -, e10, e11, -, -⟩ := tile_index t
  unfold iblk1
  rw [View.read_apply]
  show V c main_arg4 _ = V c main_arg4 _
  refine congrArg _ ?_
  funext a
  apply Fin.ext
  match a with
  | ⟨0, _⟩ => show win1_1.index t (0 : Fin 2) * 16 + 1 * k.val = k.val; omega
  | ⟨1, _⟩ => show win1_1.index t (1 : Fin 2) * 32 + 1 * q.val = q.val; omega

/-- What tile t writes back is block t of the product of the whole operands. -/
theorem flushed_eq (c : Dev nD) (t : Fin cfg1.N) :
    (dat1 V c).flushed 2 t = ((cfg1.win 2).blk t).view.read (Elt Ideal) (whole (V c main_v49) (V c main_arg4)) := by
  show (cfg1.win 2).cut (grid1.coords t) ((dat1 V c).after 2 t) = _
  rw [after1_2 V c t]
  unfold out1_2
  rw [View.canon_unit_zero hz]
  simp only [View.ld_unit_zero (S := S10000x16) hz, View.ld_unit_zero (S := S16x32) hz]
  obtain ⟨-, -, -, -, e20, e21⟩ := tile_index t
  have hN : cfg1.N = 10 := N_1
  have ht : t.val < 10 := by have := t.isLt; omega
  funext y
  obtain ⟨p, q, rfl⟩ : ∃ (p : Fin 10000) (q : Fin 32), y = ix2 p q := ⟨y 0, y 1, eq_ix2 y⟩
  have hp : p.val < 10000 := p.isLt
  have hg : t.val * 10000 + p.val < 100000 := by omega
  show k1_pay1 (iblk1 V c 0 t) (iblk1 V c 1 t) (ix2 p q)
    = whole (V c main_v49) (V c main_arg4) (((cfg1.win 2).blk t).view.emb (ix2 p q))
  have he : ((cfg1.win 2).blk t).view.emb (ix2 p q) = ix2 (⟨t.val * 10000 + p.val, hg⟩ : Fin 100000) q := by
    funext a
    apply Fin.ext
    match a with
    | ⟨0, _⟩ => show win1_2.index t (0 : Fin 2) * 10000 + 1 * p.val = t.val * 10000 + p.val; omega
    | ⟨1, _⟩ => show win1_2.index t (1 : Fin 2) * 32 + 1 * q.val = q.val; omega
  rw [he]
  exact Cert.Lib.RowTiledDot.block_entry_eq_host bitsLt_bf16_f32 (V c main_v49) (V c main_arg4)
    (shapeCast S10000x16 (iblk1 V c 0 t) shapeCasts_S10000x16_S10000x16) (iblk1 V c 1 t) p q ⟨_, hg⟩
    (fun k => (congrFun (shapeCast_self (iblk1 V c 0 t : Vec Ideal S10000x16 .f32) shapeCasts_S10000x16_S10000x16) (ix2 p k)).trans
      (left_block_apply V c t p k ⟨_, hg⟩ rfl)) (fun k => right_block_apply V c t k q)

/-- An index of the result array is in tile t's block iff each coordinate is in the block's range on its axis. -/
theorem mem_block (t : Fin cfg1.N) (i : S100000x32.Idx) :
    i ∈ ((cfg1.win 2).blk t).view.set ↔ ∀ a : Fin 2, win1_2.index t a * S10000x32.size a ≤ (i a).val
      ∧ (i a).val < win1_2.index t a * S10000x32.size a + S10000x32.size a := by
  show i ∈ ((View.whole main_v50).slice (win1_2.rect t)).set ↔ _
  rw [View.set_slice_whole, Rect.mem_set_unit]
  exact Iff.rfl

/-- After the region the result array holds the product of the whole operands as the region found them: row r is in
    the block of tile r / 10000. -/
theorem result_array (c : Dev nD) : (dat1 V c).arrAt 2 cfg1.N = whole (V c main_v49) (V c main_arg4) :=
  (dat1 V c).arrAt_eq_of_cover 2 (whole (V c main_v49) (V c main_arg4)) (fun t _ => flushed_eq V c t) fun i => by
    have hi0 : (i 0).val < 100000 := (i 0).isLt
    have hi1 : (i 1).val < 32 := (i 1).isLt
    have hN : cfg1.N = 10 := N_1
    obtain ⟨t, ht⟩ : ∃ t : Fin cfg1.N, t.val = (i 0).val / 10000 := ⟨⟨(i 0).val / 10000, by omega⟩, rfl⟩
    obtain ⟨-, -, -, -, e20, e21⟩ := tile_index t
    refine ⟨t, flush1_2 t, ?_⟩
    rw [mem_block]
    intro a
    match a with
    | ⟨0, _⟩ =>
      show win1_2.index t (0 : Fin 2) * 10000 ≤ (i 0).val ∧ (i 0).val < win1_2.index t (0 : Fin 2) * 10000 + 10000
      omega
    | ⟨1, _⟩ =>
      show win1_2.index t (1 : Fin 2) * 32 ≤ (i 1).val ∧ (i 1).val < win1_2.index t (1 : Fin 2) * 32 + 32
      omega

end Cert.KernelIdeal.Dense1

end
-- ==== Proof.Dense2.lean ====
/-
  The third dense projection, read as one whole-array function.

  The region tiles the 100000 rows of its left operand [100000, 32] into ten blocks of 10000 rows; at tile t the body
  multiplies rows 10000·t … 10000·t + 9999 (narrowed to bf16, the identity on the extended reals) by the whole right
  operand [32, 32] into a zero accumulator and writes the [10000, 32] block back as rows 10000·t … of the result. An entry of a
  product reads one row of the left factor, so block t of the result is block t of the product of the whole matrices,
  and the ten blocks cover the result array: after the region it holds the host's plain product of the two operands
  as the region found them.
-/
import proofs.«144811_j2748779070162_1_alg».proof.Proof.Gen.KernelIdeal.Frame
import Idealize.ShloMosaic.Lib.ValueIdx
import Idealize.ShloMosaic.Lib.Pipeline.Value
import proofs.«144811_j2748779070162_1_alg».proof.Proof.LibRowTiledDot

noncomputable section

open Idealize.ShloMosaic Idealize.ShloMosaic.TcCoe Idealize.ShloMosaic.ValueIdx Idealize.SL.Sem
open Idealize.ShloMosaic.Pipeline (Dat)

namespace Cert.KernelIdeal.Dense2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of the whole operands, as the host spells it. -/
abbrev whole (A : FVec Ideal S100000x32 .f32) (B : FVec Ideal S32x32 .f32) : FVec Ideal S100000x32 .f32 :=
  Host.dotGeneral (F := Ideal) (DotDims.plain 100000 32 32) none A B

/-- The printed index maps, decided over the ten tiles: the left operand's and the result's row block is the tile's
    number, every other block index is 0. -/
theorem tile_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the left operand's block at tile t is row 10000·t + p of the operand. -/
theorem left_block_apply (c : Dev nD) (t : Fin cfg2.N) (p : Fin 10000) (k : Fin 32) (g : Fin 100000)
    (hg : g.val = t.val * 10000 + p.val) :
    (iblk2 V c 0 t : Vec Ideal S10000x32 .f32) (ix2 p k) = (V c main_v66 : FVec Ideal S100000x32 .f32) (ix2 g k) := by
  obtain ⟨e00, e01, -, -, -, -⟩ := tile_index t
  unfold iblk2
  rw [View.read_apply]
  show V c main_v66 _ = V c main_v66 _
  refine congrArg _ ?_
  funext a
  apply Fin.ext
  match a with
  | ⟨0, _⟩ => show win2_0.index t (0 : Fin 2) * 10000 + 1 * p.val = g.val; omega
  | ⟨1, _⟩ => show win2_0.index t (1 : Fin 2) * 32 + 1 * k.val = k.val; omega

/-- The right operand's block at every tile is the whole right operand. -/
theorem right_block_apply (c : Dev nD) (t : Fin cfg2.N) (k : Fin 32) (q : Fin 32) :
    (iblk2 V c 1 t : Vec Ideal S32x32 .f32) (ix2 k q) = (V c main_arg6 : FVec Ideal S32x32 .f32) (ix2 k q) := by
  obtain ⟨-, -, e10, e11, -, -⟩ := tile_index t
  unfold iblk2
  rw [View.read_apply]
  show V c main_arg6 _ = V c main_arg6 _
  refine congrArg _ ?_
  funext a
  apply Fin.ext
  match a with
  | ⟨0, _⟩ => show win2_1.index t (0 : Fin 2) * 32 + 1 * k.val = k.val; omega
  | ⟨1, _⟩ => show win2_1.index t (1 : Fin 2) * 32 + 1 * q.val = q.val; omega

/-- What tile t writes back is block t of the product of the whole operands. -/
theorem flushed_eq (c : Dev nD) (t : Fin cfg2.N) :
    (dat2 V c).flushed 2 t = ((cfg2.win 2).blk t).view.read (Elt Ideal) (whole (V c main_v66) (V c main_arg6)) := by
  show (cfg2.win 2).cut (grid2.coords t) ((dat2 V c).after 2 t) = _
  rw [after2_2 V c t]
  unfold out2_2
  rw [View.canon_unit_zero hz]
  simp only [View.ld_unit_zero (S := S10000x32) hz, View.ld_unit_zero (S := S32x32) hz]
  obtain ⟨-, -, -, -, e20, e21⟩ := tile_index t
  have hN : cfg2.N = 10 := N_2
  have ht : t.val < 10 := by have := t.isLt; omega
  funext y
  obtain ⟨p, q, rfl⟩ : ∃ (p : Fin 10000) (q : Fin 32), y = ix2 p q := ⟨y 0, y 1, eq_ix2 y⟩
  have hp : p.val < 10000 := p.isLt
  have hg : t.val * 10000 + p.val < 100000 := by omega
  show k2_pay1 (iblk2 V c 0 t) (iblk2 V c 1 t) (ix2 p q)
    = whole (V c main_v66) (V c main_arg6) (((cfg2.win 2).blk t).view.emb (ix2 p q))
  have he : ((cfg2.win 2).blk t).view.emb (ix2 p q) = ix2 (⟨t.val * 10000 + p.val, hg⟩ : Fin 100000) q := by
    funext a
    apply Fin.ext
    match a with
    | ⟨0, _⟩ => show win2_2.index t (0 : Fin 2) * 10000 + 1 * p.val = t.val * 10000 + p.val; omega
    | ⟨1, _⟩ => show win2_2.index t (1 : Fin 2) * 32 + 1 * q.val = q.val; omega
  rw [he]
  exact Cert.Lib.RowTiledDot.block_entry_eq_host bitsLt_bf16_f32 (V c main_v66) (V c main_arg6)
    (shapeCast S10000x32 (iblk2 V c 0 t) shapeCasts_S10000x32_S10000x32) (iblk2 V c 1 t) p q ⟨_, hg⟩
    (fun k => (congrFun (shapeCast_self (iblk2 V c 0 t : Vec Ideal S10000x32 .f32) shapeCasts_S10000x32_S10000x32) (ix2 p k)).trans
      (left_block_apply V c t p k ⟨_, hg⟩ rfl)) (fun k => right_block_apply V c t k q)

/-- An index of the result array is in tile t's block iff each coordinate is in the block's range on its axis. -/
theorem mem_block (t : Fin cfg2.N) (i : S100000x32.Idx) :
    i ∈ ((cfg2.win 2).blk t).view.set ↔ ∀ a : Fin 2, win2_2.index t a * S10000x32.size a ≤ (i a).val
      ∧ (i a).val < win2_2.index t a * S10000x32.size a + S10000x32.size a := by
  show i ∈ ((View.whole main_v67).slice (win2_2.rect t)).set ↔ _
  rw [View.set_slice_whole, Rect.mem_set_unit]
  exact Iff.rfl

/-- After the region the result array holds the product of the whole operands as the region found them: row r is in
    the block of tile r / 10000. -/
theorem result_array (c : Dev nD) : (dat2 V c).arrAt 2 cfg2.N = whole (V c main_v66) (V c main_arg6) :=
  (dat2 V c).arrAt_eq_of_cover 2 (whole (V c main_v66) (V c main_arg6)) (fun t _ => flushed_eq V c t) fun i => by
    have hi0 : (i 0).val < 100000 := (i 0).isLt
    have hi1 : (i 1).val < 32 := (i 1).isLt
    have hN : cfg2.N = 10 := N_2
    obtain ⟨t, ht⟩ : ∃ t : Fin cfg2.N, t.val = (i 0).val / 10000 := ⟨⟨(i 0).val / 10000, by omega⟩, rfl⟩
    obtain ⟨-, -, -, -, e20, e21⟩ := tile_index t
    refine ⟨t, flush2_2 t, ?_⟩
    rw [mem_block]
    intro a
    match a with
    | ⟨0, _⟩ =>
      show win2_2.index t (0 : Fin 2) * 10000 ≤ (i 0).val ∧ (i 0).val < win2_2.index t (0 : Fin 2) * 10000 + 10000
      omega
    | ⟨1, _⟩ =>
      show win2_2.index t (1 : Fin 2) * 32 ≤ (i 1).val ∧ (i 1).val < win2_2.index t (1 : Fin 2) * 32 + 32
      omega

end Cert.KernelIdeal.Dense2

end
-- ==== Proof.Dense3.lean ====
/-
  The fourth dense projection, read as one whole-array function.

  The region tiles the 100000 rows of its left operand [100000, 32] into ten blocks of 10000 rows; at tile t the body
  multiplies rows 10000·t … 10000·t + 9999 (narrowed to bf16, the identity on the extended reals) by the whole right
  operand [32, 1] into a zero accumulator and writes the [10000, 1] block back as rows 10000·t … of the result. An entry of a
  product reads one row of the left factor, so block t of the result is block t of the product of the whole matrices,
  and the ten blocks cover the result array: after the region it holds the host's plain product of the two operands
  as the region found them.
-/
import proofs.«144811_j2748779070162_1_alg».proof.Proof.Gen.KernelIdeal.Frame
import Idealize.ShloMosaic.Lib.ValueIdx
import Idealize.ShloMosaic.Lib.Pipeline.Value
import proofs.«144811_j2748779070162_1_alg».proof.Proof.LibRowTiledDot

noncomputable section

open Idealize.ShloMosaic Idealize.ShloMosaic.TcCoe Idealize.ShloMosaic.ValueIdx Idealize.SL.Sem
open Idealize.ShloMosaic.Pipeline (Dat)

namespace Cert.KernelIdeal.Dense3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of the whole operands, as the host spells it. -/
abbrev whole (A : FVec Ideal S100000x32 .f32) (B : FVec Ideal S32x1 .f32) : FVec Ideal S100000x1 .f32 :=
  Host.dotGeneral (F := Ideal) (DotDims.plain 100000 32 1) none A B

/-- The printed index maps, decided over the ten tiles: the left operand's and the result's row block is the tile's
    number, every other block index is 0. -/
theorem tile_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of the left operand's block at tile t is row 10000·t + p of the operand. -/
theorem left_block_apply (c : Dev nD) (t : Fin cfg3.N) (p : Fin 10000) (k : Fin 32) (g : Fin 100000)
    (hg : g.val = t.val * 10000 + p.val) :
    (iblk3 V c 0 t : Vec Ideal S10000x32 .f32) (ix2 p k) = (V c main_v82 : FVec Ideal S100000x32 .f32) (ix2 g k) := by
  obtain ⟨e00, e01, -, -, -, -⟩ := tile_index t
  unfold iblk3
  rw [View.read_apply]
  show V c main_v82 _ = V c main_v82 _
  refine congrArg _ ?_
  funext a
  apply Fin.ext
  match a with
  | ⟨0, _⟩ => show win3_0.index t (0 : Fin 2) * 10000 + 1 * p.val = g.val; omega
  | ⟨1, _⟩ => show win3_0.index t (1 : Fin 2) * 32 + 1 * k.val = k.val; omega

/-- The right operand's block at every tile is the whole right operand. -/
theorem right_block_apply (c : Dev nD) (t : Fin cfg3.N) (k : Fin 32) (q : Fin 1) :
    (iblk3 V c 1 t : Vec Ideal S32x1 .f32) (ix2 k q) = (V c main_arg8 : FVec Ideal S32x1 .f32) (ix2 k q) := by
  obtain ⟨-, -, e10, e11, -, -⟩ := tile_index t
  unfold iblk3
  rw [View.read_apply]
  show V c main_arg8 _ = V c main_arg8 _
  refine congrArg _ ?_
  funext a
  apply Fin.ext
  match a with
  | ⟨0, _⟩ => show win3_1.index t (0 : Fin 2) * 32 + 1 * k.val = k.val; omega
  | ⟨1, _⟩ => show win3_1.index t (1 : Fin 2) * 1 + 1 * q.val = q.val; omega

/-- What tile t writes back is block t of the product of the whole operands. -/
theorem flushed_eq (c : Dev nD) (t : Fin cfg3.N) :
    (dat3 V c).flushed 2 t = ((cfg3.win 2).blk t).view.read (Elt Ideal) (whole (V c main_v82) (V c main_arg8)) := by
  show (cfg3.win 2).cut (grid3.coords t) ((dat3 V c).after 2 t) = _
  rw [after3_2 V c t]
  unfold out3_2
  rw [View.canon_unit_zero hz]
  simp only [View.ld_unit_zero (S := S10000x32) hz, View.ld_unit_zero (S := S32x1) hz]
  obtain ⟨-, -, -, -, e20, e21⟩ := tile_index t
  have hN : cfg3.N = 10 := N_3
  have ht : t.val < 10 := by have := t.isLt; omega
  funext y
  obtain ⟨p, q, rfl⟩ : ∃ (p : Fin 10000) (q : Fin 1), y = ix2 p q := ⟨y 0, y 1, eq_ix2 y⟩
  have hp : p.val < 10000 := p.isLt
  have hg : t.val * 10000 + p.val < 100000 := by omega
  show k3_pay1 (iblk3 V c 0 t) (iblk3 V c 1 t) (ix2 p q)
    = whole (V c main_v82) (V c main_arg8) (((cfg3.win 2).blk t).view.emb (ix2 p q))
  have he : ((cfg3.win 2).blk t).view.emb (ix2 p q) = ix2 (⟨t.val * 10000 + p.val, hg⟩ : Fin 100000) q := by
    funext a
    apply Fin.ext
    match a with
    | ⟨0, _⟩ => show win3_2.index t (0 : Fin 2) * 10000 + 1 * p.val = t.val * 10000 + p.val; omega
    | ⟨1, _⟩ => show win3_2.index t (1 : Fin 2) * 1 + 1 * q.val = q.val; omega
  rw [he]
  exact Cert.Lib.RowTiledDot.block_entry_eq_host bitsLt_bf16_f32 (V c main_v82) (V c main_arg8)
    (shapeCast S10000x32 (iblk3 V c 0 t) shapeCasts_S10000x32_S10000x32) (iblk3 V c 1 t) p q ⟨_, hg⟩
    (fun k => (congrFun (shapeCast_self (iblk3 V c 0 t : Vec Ideal S10000x32 .f32) shapeCasts_S10000x32_S10000x32) (ix2 p k)).trans
      (left_block_apply V c t p k ⟨_, hg⟩ rfl)) (fun k => right_block_apply V c t k q)

/-- An index of the result array is in tile t's block iff each coordinate is in the block's range on its axis. -/
theorem mem_block (t : Fin cfg3.N) (i : S100000x1.Idx) :
    i ∈ ((cfg3.win 2).blk t).view.set ↔ ∀ a : Fin 2, win3_2.index t a * S10000x1.size a ≤ (i a).val
      ∧ (i a).val < win3_2.index t a * S10000x1.size a + S10000x1.size a := by
  show i ∈ ((View.whole main_v83).slice (win3_2.rect t)).set ↔ _
  rw [View.set_slice_whole, Rect.mem_set_unit]
  exact Iff.rfl

/-- After the region the result array holds the product of the whole operands as the region found them: row r is in
    the block of tile r / 10000. -/
theorem result_array (c : Dev nD) : (dat3 V c).arrAt 2 cfg3.N = whole (V c main_v82) (V c main_arg8) :=
  (dat3 V c).arrAt_eq_of_cover 2 (whole (V c main_v82) (V c main_arg8)) (fun t _ => flushed_eq V c t) fun i => by
    have hi0 : (i 0).val < 100000 := (i 0).isLt
    have hi1 : (i 1).val < 1 := (i 1).isLt
    have hN : cfg3.N = 10 := N_3
    obtain ⟨t, ht⟩ : ∃ t : Fin cfg3.N, t.val = (i 0).val / 10000 := ⟨⟨(i 0).val / 10000, by omega⟩, rfl⟩
    obtain ⟨-, -, -, -, e20, e21⟩ := tile_index t
    refine ⟨t, flush3_2 t, ?_⟩
    rw [mem_block]
    intro a
    match a with
    | ⟨0, _⟩ =>
      show win3_2.index t (0 : Fin 2) * 10000 ≤ (i 0).val ∧ (i 0).val < win3_2.index t (0 : Fin 2) * 10000 + 10000
      omega
    | ⟨1, _⟩ =>
      show win3_2.index t (1 : Fin 2) * 1 ≤ (i 1).val ∧ (i 1).val < win3_2.index t (1 : Fin 2) * 1 + 1
      omega

end Cert.KernelIdeal.Dense3

end
-- ==== Proof.StageDots.lean ====
/-
  The four dense projections, read on both programs.

  Where the reference has one dot_general of the whole matrices the kernel has a region that multiplies ten row blocks.
  After the region the product array holds the host's product of the operands the region found (the row-tile modules);
  every other buffer is as the region found it. So from contents agreeing on the two operands, the edge data and the
  arguments, the contents after the dot_general and after the region agree on the product, the edge data and the
  arguments still to be read.
-/
import proofs.«144811_j2748779070162_1_alg».proof.Proof.Gen.KernelIdeal.Frame
import proofs.«144811_j2748779070162_1_alg».proof.Proof.RefRun
import proofs.«144811_j2748779070162_1_alg».proof.Proof.StageTactic
import proofs.«144811_j2748779070162_1_alg».proof.Proof.Dense0
import proofs.«144811_j2748779070162_1_alg».proof.Proof.Dense1
import proofs.«144811_j2748779070162_1_alg».proof.Proof.Dense2
import proofs.«144811_j2748779070162_1_alg».proof.Proof.Dense3
import Idealize.ShloMosaic.Lib.StableHlo.Run
import Idealize.ShloMosaic.PureOps.Ideal

noncomputable section

namespace Cert.Stages

open Idealize.ShloMosaic Idealize.ShloMosaic.TcCoe Idealize.SL.Sem Idealize.ShloMosaic.StableHlo

/-! ### Projection 1 -/

/-- The reference's dot_general writes the host's product of its two operands. -/
theorem ref_dot1_out (Vr : Valuation Cert.ReferenceIdeal.τ Cert.ReferenceIdeal.sig (Elt Ideal)) :
    after [(Cert.ReferenceIdeal.Pieces.op_dot1 (F := Ideal))] Vr (Proc.devRef .tc Cert.ReferenceIdeal.main_v33)
      = Host.dotGeneral (F := Ideal) (φ₁ := .f32) (φ₂ := .f32) Cert.ReferenceIdeal.dot_S100000x54_S54x16_S100000x16_1_0_0_1_n_n none
          (Vr (Proc.devRef .tc Cert.ReferenceIdeal.main_arg0) : FVec Ideal Cert.ReferenceIdeal.S100000x54 .f32) (Vr (Proc.devRef .tc Cert.ReferenceIdeal.main_arg2) : FVec Ideal Cert.ReferenceIdeal.S54x16 .f32) := by
  dsimp only [Cert.ReferenceIdeal.Pieces.op_dot1]
  after_results_simp

/-! and leaves every other buffer as it was. -/
theorem ref_dot1_keep_main_v5 (Vr : Valuation Cert.ReferenceIdeal.τ Cert.ReferenceIdeal.sig (Elt Ideal)) :
    after [(Cert.ReferenceIdeal.Pieces.op_dot1 (F := Ideal))] Vr (Proc.devRef .tc Cert.ReferenceIdeal.main_v5) = Vr (Proc.devRef .tc Cert.ReferenceIdeal.main_v5) := by
  dsimp only [Cert.ReferenceIdeal.Pieces.op_dot1]
  after_results_simp
theorem ref_dot1_keep_main_v6 (Vr : Valuation Cert.ReferenceIdeal.τ Cert.ReferenceIdeal.sig (Elt Ideal)) :
    after [(Cert.ReferenceIdeal.Pieces.op_dot1 (F := Ideal))] Vr (Proc.devRef .tc Cert.ReferenceIdeal.main_v6) = Vr (Proc.devRef .tc Cert.ReferenceIdeal.main_v6) := by
  dsimp only [Cert.ReferenceIdeal.Pieces.op_dot1]
  after_results_simp
theorem ref_dot1_keep_main_v32 (Vr : Valuation Cert.ReferenceIdeal.τ Cert.ReferenceIdeal.sig (Elt Ideal)) :
    after [(Cert.ReferenceIdeal.Pieces.op_dot1 (F := Ideal))] Vr (Proc.devRef .tc Cert.ReferenceIdeal.main_v32) = Vr (Proc.devRef .tc Cert.ReferenceIdeal.main_v32) := by
  dsimp only [Cert.ReferenceIdeal.Pieces.op_dot1]
  after_results_simp
theorem ref_dot1_keep_main_arg3 (Vr : Valuation Cert.ReferenceIdeal.τ Cert.ReferenceIdeal.sig (Elt Ideal)) :
    after [(Cert.ReferenceIdeal.Pieces.op_dot1 (F := Ideal))] Vr (Proc.devRef .tc Cert.ReferenceIdeal.main_arg3) = Vr (Proc.devRef .tc Cert.ReferenceIdeal.main_arg3) := by
  dsimp only [Cert.ReferenceIdeal.Pieces.op_dot1]
  after_results_simp
theorem ref_dot1_keep_main_arg4 (Vr : Valuation Cert.ReferenceIdeal.τ Cert.ReferenceIdeal.sig (Elt Ideal)) :
    after [(Cert.ReferenceIdeal.Pieces.op_dot1 (F := Ideal))] Vr (Proc.devRef .tc Cert.ReferenceIdeal.main_arg4) = Vr (Proc.devRef .tc Cert.ReferenceIdeal.main_arg4) := by
  dsimp only [Cert.ReferenceIdeal.Pieces.op_dot1]
  after_results_simp
theorem ref_dot1_keep_main_arg5 (Vr : Valuation Cert.ReferenceIdeal.τ Cert.ReferenceIdeal.sig (Elt Ideal)) :
    after [(Cert.ReferenceIdeal.Pieces.op_dot1 (F := Ideal))] Vr (Proc.devRef .tc Cert.ReferenceIdeal.main_arg5) = Vr (Proc.devRef .tc Cert.ReferenceIdeal.main_arg5) := by
  dsimp only [Cert.ReferenceIdeal.Pieces.op_dot1]
  after_results_simp
theorem ref_dot1_keep_main_arg6 (Vr : Valuation Cert.ReferenceIdeal.τ Cert.ReferenceIdeal.sig (Elt Ideal)) :
    after [(Cert.ReferenceIdeal.Pieces.op_dot1 (F := Ideal))] Vr (Proc.devRef .tc Cert.ReferenceIdeal.main_arg6) = Vr (Proc.devRef .tc Cert.ReferenceIdeal.main_arg6) := by
  dsimp only [Cert.ReferenceIdeal.Pieces.op_dot1]
  after_results_simp
theorem ref_dot1_keep_main_arg7 (Vr : Valuation Cert.ReferenceIdeal.τ Cert.ReferenceIdeal.sig (Elt Ideal)) :
    after [(Cert.ReferenceIdeal.Pieces.op_dot1 (F := Ideal))] Vr (Proc.devRef .tc Cert.ReferenceIdeal.main_arg7) = Vr (Proc.devRef .tc Cert.ReferenceIdeal.main_arg7) := by
  dsimp only [Cert.ReferenceIdeal.Pieces.op_dot1]
  after_results_simp
theorem ref_dot1_keep_main_arg8 (Vr : Valuation Cert.ReferenceIdeal.τ Cert.ReferenceIdeal.sig (Elt Ideal)) :
    after [(Cert.ReferenceIdeal.Pieces.op_dot1 (F := Ideal))] Vr (Proc.devRef .tc Cert.ReferenceIdeal.main_arg8) = Vr (Proc.devRef .tc Cert.ReferenceIdeal.main_arg8) := by
  dsimp only [Cert.ReferenceIdeal.Pieces.op_dot1]
  after_results_simp
theorem ref_dot1_keep_main_arg9 (Vr : Valuation Cert.ReferenceIdeal.τ Cert.ReferenceIdeal.sig (Elt Ideal)) :
    after [(Cert.ReferenceIdeal.Pieces.op_dot1 (F := Ideal))] Vr (Proc.devRef .tc Cert.ReferenceIdeal.main_arg9) = Vr (Proc.devRef .tc Cert.ReferenceIdeal.main_arg9) := by
  dsimp only [Cert.ReferenceIdeal.Pieces.op_dot1]
  after_results_simp

/-- From contents agreeing at region 0's entry on its two operands, the edge data and the arguments, the reference's
    dot_general and the kernel's region leave the product array, the edge data and the remaining arguments in agreement. -/
theorem dot1_agree (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (Vr : Valuation Cert.ReferenceIdeal.τ Cert.ReferenceIdeal.sig (Elt Ideal))
    (h_main_v5 : Vr (Proc.devRef .tc Cert.ReferenceIdeal.main_v5) = Cert.KernelIdeal.Gen.W3 m ρ c (Proc.devRef .tc Cert.KernelIdeal.main_v5))
    (h_main_v6 : Vr (Proc.devRef .tc Cert.ReferenceIdeal.main_v6) = Cert.KernelIdeal.Gen.W3 m ρ c (Proc.devRef .tc Cert.KernelIdeal.main_v6))
    (h_main_v32 : Vr (Proc.devRef .tc Cert.ReferenceIdeal.main_v32) = Cert.KernelIdeal.Gen.W3 m ρ c (Proc.devRef .tc Cert.KernelIdeal.main_v32))
    (h_main_arg0 : Vr (Proc.devRef .tc Cert.ReferenceIdeal.main_arg0) = Cert.KernelIdeal.Gen.W3 m ρ c (Proc.devRef .tc Cert.KernelIdeal.main_arg0))
    (h_main_arg2 : Vr (Proc.devRef .tc Cert.ReferenceIdeal.main_arg2) = Cert.KernelIdeal.Gen.W3 m ρ c (Proc.devRef .tc Cert.KernelIdeal.main_arg2))
    (h_main_arg3 : Vr (Proc.devRef .tc Cert.ReferenceIdeal.main_arg3) = Cert.KernelIdeal.Gen.W3 m ρ c (Proc.devRef .tc Cert.KernelIdeal.main_arg3))
    (h_main_arg4 : Vr (Proc.devRef .tc Cert.ReferenceIdeal.main_arg4) = Cert.KernelIdeal.Gen.W3 m ρ c (Proc.devRef .tc Cert.KernelIdeal.main_arg4))
    (h_main_arg5 : Vr (Proc.devRef .tc Cert.ReferenceIdeal.main_arg5) = Cert.KernelIdeal.Gen.W3 m ρ c (Proc.devRef .tc Cert.KernelIdeal.main_arg5))
    (h_main_arg6 : Vr (Proc.devRef .tc Cert.ReferenceIdeal.main_arg6) = Cert.KernelIdeal.Gen.W3 m ρ c (Proc.devRef .tc Cert.KernelIdeal.main_arg6))
    (h_main_arg7 : Vr (Proc.devRef .tc Cert.ReferenceIdeal.main_arg7) = Cert.KernelIdeal.Gen.W3 m ρ c (Proc.devRef .tc Cert.KernelIdeal.main_arg7))
    (h_main_arg8 : Vr (Proc.devRef .tc Cert.ReferenceIdeal.main_arg8) = Cert.KernelIdeal.Gen.W3 m ρ c (Proc.devRef .tc Cert.KernelIdeal.main_arg8))
    (h_main_arg9 : Vr (Proc.devRef .tc Cert.ReferenceIdeal.main_arg9) = Cert.KernelIdeal.Gen.W3 m ρ c (Proc.devRef .tc Cert.KernelIdeal.main_arg9)) :
    after [(Cert.ReferenceIdeal.Pieces.op_dot1 (F := Ideal))] Vr (Proc.devRef .tc Cert.ReferenceIdeal.main_v33)
        = Cert.KernelIdeal.Gen.W4 m ρ c (Proc.devRef .tc Cert.KernelIdeal.main_v33)
    ∧ after [(Cert.ReferenceIdeal.Pieces.op_dot1 (F := Ideal))] Vr (Proc.devRef .tc Cert.ReferenceIdeal.main_v5)
        = Cert.KernelIdeal.Gen.W4 m ρ c (Proc.devRef .tc Cert.KernelIdeal.main_v5)
    ∧ after [(Cert.ReferenceIdeal.Pieces.op_dot1 (F := Ideal))] Vr (Proc.devRef .tc Cert.ReferenceIdeal.main_v6)
        = Cert.KernelIdeal.Gen.W4 m ρ c (Proc.devRef .tc Cert.KernelIdeal.main_v6)
    ∧ after [(Cert.ReferenceIdeal.Pieces.op_dot1 (F := Ideal))] Vr (Proc.devRef .tc Cert.ReferenceIdeal.main_v32)
        = Cert.KernelIdeal.Gen.W4 m ρ c (Proc.devRef .tc Cert.KernelIdeal.main_v32)
    ∧ after [(Cert.ReferenceIdeal.Pieces.op_dot1 (F := Ideal))] Vr (Proc.devRef .tc Cert.ReferenceIdeal.main_arg3)
        = Cert.KernelIdeal.Gen.W4 m ρ c (Proc.devRef .tc Cert.KernelIdeal.main_arg3)
    ∧ after [(Cert.ReferenceIdeal.Pieces.op_dot1 (F := Ideal))] Vr (Proc.devRef .tc Cert.ReferenceIdeal.main_arg4)
        = Cert.KernelIdeal.Gen.W4 m ρ c (Proc.devRef .tc Cert.KernelIdeal.main_arg4)
    ∧ after [(Cert.ReferenceIdeal.Pieces.op_dot1 (F := Ideal))] Vr (Proc.devRef .tc Cert.ReferenceIdeal.main_arg5)
        = Cert.KernelIdeal.Gen.W4 m ρ c (Proc.devRef .tc Cert.KernelIdeal.main_arg5)
    ∧ after [(Cert.ReferenceIdeal.Pieces.op_dot1 (F := Ideal))] Vr (Proc.devRef .tc Cert.ReferenceIdeal.main_arg6)
        = Cert.KernelIdeal.Gen.W4 m ρ c (Proc.devRef .tc Cert.KernelIdeal.main_arg6)
    ∧ after [(Cert.ReferenceIdeal.Pieces.op_dot1 (F := Ideal))] Vr (Proc.devRef .tc Cert.ReferenceIdeal.main_arg7)
        = Cert.KernelIdeal.Gen.W4 m ρ c (Proc.devRef .tc Cert.KernelIdeal.main_arg7)
    ∧ after [(Cert.ReferenceIdeal.Pieces.op_dot1 (F := Ideal))] Vr (Proc.devRef .tc Cert.ReferenceIdeal.main_arg8)
        = Cert.KernelIdeal.Gen.W4 m ρ c (Proc.devRef .tc Cert.KernelIdeal.main_arg8)
    ∧ after [(Cert.ReferenceIdeal.Pieces.op_dot1 (F := Ideal))] Vr (Proc.devRef .tc Cert.ReferenceIdeal.main_arg9)
        = Cert.KernelIdeal.Gen.W4 m ρ c (Proc.devRef .tc Cert.KernelIdeal.main_arg9) :=
  ⟨(ref_dot1_out Vr).trans
      ((show Host.dotGeneral (F := Ideal) (φ₁ := .f32) (φ₂ := .f32) Cert.ReferenceIdeal.dot_S100000x54_S54x16_S100000x16_1_0_0_1_n_n none
            (Vr (Proc.devRef .tc Cert.ReferenceIdeal.main_arg0) : FVec Ideal Cert.ReferenceIdeal.S100000x54 .f32) (Vr (Proc.devRef .tc Cert.ReferenceIdeal.main_arg2) : FVec Ideal Cert.ReferenceIdeal.S54x16 .f32)
          = Cert.KernelIdeal.Dense0.whole (Cert.KernelIdeal.Gen.W3 m ρ c (Proc.devRef .tc Cert.KernelIdeal.main_arg0)) (Cert.KernelIdeal.Gen.W3 m ρ c (Proc.devRef .tc Cert.KernelIdeal.main_arg2))
        from by rw [h_main_arg0, h_main_arg2]; rfl).trans
        ((Cert.KernelIdeal.Gen.W4_arr m ρ c 2).trans (Cert.KernelIdeal.Dense0.result_array (Cert.KernelIdeal.Gen.V3 m ρ) c)).symm),
    (ref_dot1_keep_main_v5 Vr).trans (h_main_v5.trans (Cert.KernelIdeal.Gen.W4_of_ne m ρ c Cert.KernelIdeal.main_v5 (by decide)).symm),
    (ref_dot1_keep_main_v6 Vr).trans (h_main_v6.trans (Cert.KernelIdeal.Gen.W4_of_ne m ρ c Cert.KernelIdeal.main_v6 (by decide)).symm),
    (ref_dot1_keep_main_v32 Vr).trans (h_main_v32.trans (Cert.KernelIdeal.Gen.W4_of_ne m ρ c Cert.KernelIdeal.main_v32 (by decide)).symm),
    (ref_dot1_keep_main_arg3 Vr).trans (h_main_arg3.trans (Cert.KernelIdeal.Gen.W4_of_ne m ρ c Cert.KernelIdeal.main_arg3 (by decide)).symm),
    (ref_dot1_keep_main_arg4 Vr).trans (h_main_arg4.trans (Cert.KernelIdeal.Gen.W4_of_ne m ρ c Cert.KernelIdeal.main_arg4 (by decide)).symm),
    (ref_dot1_keep_main_arg5 Vr).trans (h_main_arg5.trans (Cert.KernelIdeal.Gen.W4_of_ne m ρ c Cert.KernelIdeal.main_arg5 (by decide)).symm),
    (ref_dot1_keep_main_arg6 Vr).trans (h_main_arg6.trans (Cert.KernelIdeal.Gen.W4_of_ne m ρ c Cert.KernelIdeal.main_arg6 (by decide)).symm),
    (ref_dot1_keep_main_arg7 Vr).trans (h_main_arg7.trans (Cert.KernelIdeal.Gen.W4_of_ne m ρ c Cert.KernelIdeal.main_arg7 (by decide)).symm),
    (ref_dot1_keep_main_arg8 Vr).trans (h_main_arg8.trans (Cert.KernelIdeal.Gen.W4_of_ne m ρ c Cert.KernelIdeal.main_arg8 (by decide)).symm),
    (ref_dot1_keep_main_arg9 Vr).trans (h_main_arg9.trans (Cert.KernelIdeal.Gen.W4_of_ne m ρ c Cert.KernelIdeal.main_arg9 (by decide)).symm)⟩

/-! ### Projection 2 -/

/-- The reference's dot_general writes the host's product of its two operands. -/
theorem ref_dot2_out (Vr : Valuation Cert.ReferenceIdeal.τ Cert.ReferenceIdeal.sig (Elt Ideal)) :
    after [(Cert.ReferenceIdeal.Pieces.op_dot2 (F := Ideal))] Vr (Proc.devRef .tc Cert.ReferenceIdeal.main_v50)
      = Host.dotGeneral (F := Ideal) (φ₁ := .f32) (φ₂ := .f32) Cert.ReferenceIdeal.dot_S100000x16_S16x32_S100000x32_1_0_0_1_n_n none
          (Vr (Proc.devRef .tc Cert.ReferenceIdeal.main_v49) : FVec Ideal Cert.ReferenceIdeal.S100000x16 .f32) (Vr (Proc.devRef .tc Cert.ReferenceIdeal.main_arg4) : FVec Ideal Cert.ReferenceIdeal.S16x32 .f32) := by
  dsimp only [Cert.ReferenceIdeal.Pieces.op_dot2]
  after_results_simp

/-! and leaves every other buffer as it was. -/
theorem ref_dot2_keep_main_v5 (Vr : Valuation Cert.ReferenceIdeal.τ Cert.ReferenceIdeal.sig (Elt Ideal)) :
    after [(Cert.ReferenceIdeal.Pieces.op_dot2 (F := Ideal))] Vr (Proc.devRef .tc Cert.ReferenceIdeal.main_v5) = Vr (Proc.devRef .tc Cert.ReferenceIdeal.main_v5) := by
  dsimp only [Cert.ReferenceIdeal.Pieces.op_dot2]
  after_results_simp
theorem ref_dot2_keep_main_v6 (Vr : Valuation Cert.ReferenceIdeal.τ Cert.ReferenceIdeal.sig (Elt Ideal)) :
    after [(Cert.ReferenceIdeal.Pieces.op_dot2 (F := Ideal))] Vr (Proc.devRef .tc Cert.ReferenceIdeal.main_v6) = Vr (Proc.devRef .tc Cert.ReferenceIdeal.main_v6) := by
  dsimp only [Cert.ReferenceIdeal.Pieces.op_dot2]
  after_results_simp
theorem ref_dot2_keep_main_v32 (Vr : Valuation Cert.ReferenceIdeal.τ Cert.ReferenceIdeal.sig (Elt Ideal)) :
    after [(Cert.ReferenceIdeal.Pieces.op_dot2 (F := Ideal))] Vr (Proc.devRef .tc Cert.ReferenceIdeal.main_v32) = Vr (Proc.devRef .tc Cert.ReferenceIdeal.main_v32) := by
  dsimp only [Cert.ReferenceIdeal.Pieces.op_dot2]
  after_results_simp
theorem ref_dot2_keep_main_arg5 (Vr : Valuation Cert.ReferenceIdeal.τ Cert.ReferenceIdeal.sig (Elt Ideal)) :
    after [(Cert.ReferenceIdeal.Pieces.op_dot2 (F := Ideal))] Vr (Proc.devRef .tc Cert.ReferenceIdeal.main_arg5) = Vr (Proc.devRef .tc Cert.ReferenceIdeal.main_arg5) := by
  dsimp only [Cert.ReferenceIdeal.Pieces.op_dot2]
  after_results_simp
theorem ref_dot2_keep_main_arg6 (Vr : Valuation Cert.ReferenceIdeal.τ Cert.ReferenceIdeal.sig (Elt Ideal)) :
    after [(Cert.ReferenceIdeal.Pieces.op_dot2 (F := Ideal))] Vr (Proc.devRef .tc Cert.ReferenceIdeal.main_arg6) = Vr (Proc.devRef .tc Cert.ReferenceIdeal.main_arg6) := by
  dsimp only [Cert.ReferenceIdeal.Pieces.op_dot2]
  after_results_simp
theorem ref_dot2_keep_main_arg7 (Vr : Valuation Cert.ReferenceIdeal.τ Cert.ReferenceIdeal.sig (Elt Ideal)) :
    after [(Cert.ReferenceIdeal.Pieces.op_dot2 (F := Ideal))] Vr (Proc.devRef .tc Cert.ReferenceIdeal.main_arg7) = Vr (Proc.devRef .tc Cert.ReferenceIdeal.main_arg7) := by
  dsimp only [Cert.ReferenceIdeal.Pieces.op_dot2]
  after_results_simp
theorem ref_dot2_keep_main_arg8 (Vr : Valuation Cert.ReferenceIdeal.τ Cert.ReferenceIdeal.sig (Elt Ideal)) :
    after [(Cert.ReferenceIdeal.Pieces.op_dot2 (F := Ideal))] Vr (Proc.devRef .tc Cert.ReferenceIdeal.main_arg8) = Vr (Proc.devRef .tc Cert.ReferenceIdeal.main_arg8) := by
  dsimp only [Cert.ReferenceIdeal.Pieces.op_dot2]
  after_results_simp
theorem ref_dot2_keep_main_arg9 (Vr : Valuation Cert.ReferenceIdeal.τ Cert.ReferenceIdeal.sig (Elt Ideal)) :
    after [(Cert.ReferenceIdeal.Pieces.op_dot2 (F := Ideal))] Vr (Proc.devRef .tc Cert.ReferenceIdeal.main_arg9) = Vr (Proc.devRef .tc Cert.ReferenceIdeal.main_arg9) := by
  dsimp only [Cert.ReferenceIdeal.Pieces.op_dot2]
  after_results_simp

/-- From contents agreeing at region 1's entry on its two operands, the edge data and the arguments, the reference's
    dot_general and the kernel's region leave the product array, the edge data and the remaining arguments in agreement. -/
theorem dot2_agree (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (Vr : Valuation Cert.ReferenceIdeal.τ Cert.ReferenceIdeal.sig (Elt Ideal))
    (h_main_v49 : Vr (Proc.devRef .tc Cert.ReferenceIdeal.main_v49) = Cert.KernelIdeal.Gen.W6 m ρ c (Proc.devRef .tc Cert.KernelIdeal.main_v49))
    (h_main_v5 : Vr (Proc.devRef .tc Cert.ReferenceIdeal.main_v5) = Cert.KernelIdeal.Gen.W6 m ρ c (Proc.devRef .tc Cert.KernelIdeal.main_v5))
    (h_main_v6 : Vr (Proc.devRef .tc Cert.ReferenceIdeal.main_v6) = Cert.KernelIdeal.Gen.W6 m ρ c (Proc.devRef .tc Cert.KernelIdeal.main_v6))
    (h_main_v32 : Vr (Proc.devRef .tc Cert.ReferenceIdeal.main_v32) = Cert.KernelIdeal.Gen.W6 m ρ c (Proc.devRef .tc Cert.KernelIdeal.main_v32))
    (h_main_arg4 : Vr (Proc.devRef .tc Cert.ReferenceIdeal.main_arg4) = Cert.KernelIdeal.Gen.W6 m ρ c (Proc.devRef .tc Cert.KernelIdeal.main_arg4))
    (h_main_arg5 : Vr (Proc.devRef .tc Cert.ReferenceIdeal.main_arg5) = Cert.KernelIdeal.Gen.W6 m ρ c (Proc.devRef .tc Cert.KernelIdeal.main_arg5))
    (h_main_arg6 : Vr (Proc.devRef .tc Cert.ReferenceIdeal.main_arg6) = Cert.KernelIdeal.Gen.W6 m ρ c (Proc.devRef .tc Cert.KernelIdeal.main_arg6))
    (h_main_arg7 : Vr (Proc.devRef .tc Cert.ReferenceIdeal.main_arg7) = Cert.KernelIdeal.Gen.W6 m ρ c (Proc.devRef .tc Cert.KernelIdeal.main_arg7))
    (h_main_arg8 : Vr (Proc.devRef .tc Cert.ReferenceIdeal.main_arg8) = Cert.KernelIdeal.Gen.W6 m ρ c (Proc.devRef .tc Cert.KernelIdeal.main_arg8))
    (h_main_arg9 : Vr (Proc.devRef .tc Cert.ReferenceIdeal.main_arg9) = Cert.KernelIdeal.Gen.W6 m ρ c (Proc.devRef .tc Cert.KernelIdeal.main_arg9)) :
    after [(Cert.ReferenceIdeal.Pieces.op_dot2 (F := Ideal))] Vr (Proc.devRef .tc Cert.ReferenceIdeal.main_v50)
        = Cert.KernelIdeal.Gen.W7 m ρ c (Proc.devRef .tc Cert.KernelIdeal.main_v50)
    ∧ after [(Cert.ReferenceIdeal.Pieces.op_dot2 (F := Ideal))] Vr (Proc.devRef .tc Cert.ReferenceIdeal.main_v5)
        = Cert.KernelIdeal.Gen.W7 m ρ c (Proc.devRef .tc Cert.KernelIdeal.main_v5)
    ∧ after [(Cert.ReferenceIdeal.Pieces.op_dot2 (F := Ideal))] Vr (Proc.devRef .tc Cert.ReferenceIdeal.main_v6)
        = Cert.KernelIdeal.Gen.W7 m ρ c (Proc.devRef .tc Cert.KernelIdeal.main_v6)
    ∧ after [(Cert.ReferenceIdeal.Pieces.op_dot2 (F := Ideal))] Vr (Proc.devRef .tc Cert.ReferenceIdeal.main_v32)
        = Cert.KernelIdeal.Gen.W7 m ρ c (Proc.devRef .tc Cert.KernelIdeal.main_v32)
    ∧ after [(Cert.ReferenceIdeal.Pieces.op_dot2 (F := Ideal))] Vr (Proc.devRef .tc Cert.ReferenceIdeal.main_arg5)
        = Cert.KernelIdeal.Gen.W7 m ρ c (Proc.devRef .tc Cert.KernelIdeal.main_arg5)
    ∧ after [(Cert.ReferenceIdeal.Pieces.op_dot2 (F := Ideal))] Vr (Proc.devRef .tc Cert.ReferenceIdeal.main_arg6)
        = Cert.KernelIdeal.Gen.W7 m ρ c (Proc.devRef .tc Cert.KernelIdeal.main_arg6)
    ∧ after [(Cert.ReferenceIdeal.Pieces.op_dot2 (F := Ideal))] Vr (Proc.devRef .tc Cert.ReferenceIdeal.main_arg7)
        = Cert.KernelIdeal.Gen.W7 m ρ c (Proc.devRef .tc Cert.KernelIdeal.main_arg7)
    ∧ after [(Cert.ReferenceIdeal.Pieces.op_dot2 (F := Ideal))] Vr (Proc.devRef .tc Cert.ReferenceIdeal.main_arg8)
        = Cert.KernelIdeal.Gen.W7 m ρ c (Proc.devRef .tc Cert.KernelIdeal.main_arg8)
    ∧ after [(Cert.ReferenceIdeal.Pieces.op_dot2 (F := Ideal))] Vr (Proc.devRef .tc Cert.ReferenceIdeal.main_arg9)
        = Cert.KernelIdeal.Gen.W7 m ρ c (Proc.devRef .tc Cert.KernelIdeal.main_arg9) :=
  ⟨(ref_dot2_out Vr).trans
      ((show Host.dotGeneral (F := Ideal) (φ₁ := .f32) (φ₂ := .f32) Cert.ReferenceIdeal.dot_S100000x16_S16x32_S100000x32_1_0_0_1_n_n none
            (Vr (Proc.devRef .tc Cert.ReferenceIdeal.main_v49) : FVec Ideal Cert.ReferenceIdeal.S100000x16 .f32) (Vr (Proc.devRef .tc Cert.ReferenceIdeal.main_arg4) : FVec Ideal Cert.ReferenceIdeal.S16x32 .f32)
          = Cert.KernelIdeal.Dense1.whole (Cert.KernelIdeal.Gen.W6 m ρ c (Proc.devRef .tc Cert.KernelIdeal.main_v49)) (Cert.KernelIdeal.Gen.W6 m ρ c (Proc.devRef .tc Cert.KernelIdeal.main_arg4))
        from by rw [h_main_v49, h_main_arg4]; rfl).trans
        ((Cert.KernelIdeal.Gen.W7_arr m ρ c 2).trans (Cert.KernelIdeal.Dense1.result_array (Cert.KernelIdeal.Gen.V6 m ρ) c)).symm),
    (ref_dot2_keep_main_v5 Vr).trans (h_main_v5.trans (Cert.KernelIdeal.Gen.W7_of_ne m ρ c Cert.KernelIdeal.main_v5 (by decide)).symm),
    (ref_dot2_keep_main_v6 Vr).trans (h_main_v6.trans (Cert.KernelIdeal.Gen.W7_of_ne m ρ c Cert.KernelIdeal.main_v6 (by decide)).symm),
    (ref_dot2_keep_main_v32 Vr).trans (h_main_v32.trans (Cert.KernelIdeal.Gen.W7_of_ne m ρ c Cert.KernelIdeal.main_v32 (by decide)).symm),
    (ref_dot2_keep_main_arg5 Vr).trans (h_main_arg5.trans (Cert.KernelIdeal.Gen.W7_of_ne m ρ c Cert.KernelIdeal.main_arg5 (by decide)).symm),
    (ref_dot2_keep_main_arg6 Vr).trans (h_main_arg6.trans (Cert.KernelIdeal.Gen.W7_of_ne m ρ c Cert.KernelIdeal.main_arg6 (by decide)).symm),
    (ref_dot2_keep_main_arg7 Vr).trans (h_main_arg7.trans (Cert.KernelIdeal.Gen.W7_of_ne m ρ c Cert.KernelIdeal.main_arg7 (by decide)).symm),
    (ref_dot2_keep_main_arg8 Vr).trans (h_main_arg8.trans (Cert.KernelIdeal.Gen.W7_of_ne m ρ c Cert.KernelIdeal.main_arg8 (by decide)).symm),
    (ref_dot2_keep_main_arg9 Vr).trans (h_main_arg9.trans (Cert.KernelIdeal.Gen.W7_of_ne m ρ c Cert.KernelIdeal.main_arg9 (by decide)).symm)⟩

/-! ### Projection 3 -/

/-- The reference's dot_general writes the host's product of its two operands. -/
theorem ref_dot3_out (Vr : Valuation Cert.ReferenceIdeal.τ Cert.ReferenceIdeal.sig (Elt Ideal)) :
    after [(Cert.ReferenceIdeal.Pieces.op_dot3 (F := Ideal))] Vr (Proc.devRef .tc Cert.ReferenceIdeal.main_v67)
      = Host.dotGeneral (F := Ideal) (φ₁ := .f32) (φ₂ := .f32) Cert.ReferenceIdeal.dot_S100000x32_S32x32_S100000x32_1_0_0_1_n_n none
          (Vr (Proc.devRef .tc Cert.ReferenceIdeal.main_v66) : FVec Ideal Cert.ReferenceIdeal.S100000x32 .f32) (Vr (Proc.devRef .tc Cert.ReferenceIdeal.main_arg6) : FVec Ideal Cert.ReferenceIdeal.S32x32 .f32) := by
  dsimp only [Cert.ReferenceIdeal.Pieces.op_dot3]
  after_results_simp

/-! and leaves every other buffer as it was. -/
theorem ref_dot3_keep_main_v5 (Vr : Valuation Cert.ReferenceIdeal.τ Cert.ReferenceIdeal.sig (Elt Ideal)) :
    after [(Cert.ReferenceIdeal.Pieces.op_dot3 (F := Ideal))] Vr (Proc.devRef .tc Cert.ReferenceIdeal.main_v5) = Vr (Proc.devRef .tc Cert.ReferenceIdeal.main_v5) := by
  dsimp only [Cert.ReferenceIdeal.Pieces.op_dot3]
  after_results_simp
theorem ref_dot3_keep_main_v6 (Vr : Valuation Cert.ReferenceIdeal.τ Cert.ReferenceIdeal.sig (Elt Ideal)) :
    after [(Cert.ReferenceIdeal.Pieces.op_dot3 (F := Ideal))] Vr (Proc.devRef .tc Cert.ReferenceIdeal.main_v6) = Vr (Proc.devRef .tc Cert.ReferenceIdeal.main_v6) := by
  dsimp only [Cert.ReferenceIdeal.Pieces.op_dot3]
  after_results_simp
theorem ref_dot3_keep_main_v32 (Vr : Valuation Cert.ReferenceIdeal.τ Cert.ReferenceIdeal.sig (Elt Ideal)) :
    after [(Cert.ReferenceIdeal.Pieces.op_dot3 (F := Ideal))] Vr (Proc.devRef .tc Cert.ReferenceIdeal.main_v32) = Vr (Proc.devRef .tc Cert.ReferenceIdeal.main_v32) := by
  dsimp only [Cert.ReferenceIdeal.Pieces.op_dot3]
  after_results_simp
theorem ref_dot3_keep_main_arg7 (Vr : Valuation Cert.ReferenceIdeal.τ Cert.ReferenceIdeal.sig (Elt Ideal)) :
    after [(Cert.ReferenceIdeal.Pieces.op_dot3 (F := Ideal))] Vr (Proc.devRef .tc Cert.ReferenceIdeal.main_arg7) = Vr (Proc.devRef .tc Cert.ReferenceIdeal.main_arg7) := by
  dsimp only [Cert.ReferenceIdeal.Pieces.op_dot3]
  after_results_simp
theorem ref_dot3_keep_main_arg8 (Vr : Valuation Cert.ReferenceIdeal.τ Cert.ReferenceIdeal.sig (Elt Ideal)) :
    after [(Cert.ReferenceIdeal.Pieces.op_dot3 (F := Ideal))] Vr (Proc.devRef .tc Cert.ReferenceIdeal.main_arg8) = Vr (Proc.devRef .tc Cert.ReferenceIdeal.main_arg8) := by
  dsimp only [Cert.ReferenceIdeal.Pieces.op_dot3]
  after_results_simp
theorem ref_dot3_keep_main_arg9 (Vr : Valuation Cert.ReferenceIdeal.τ Cert.ReferenceIdeal.sig (Elt Ideal)) :
    after [(Cert.ReferenceIdeal.Pieces.op_dot3 (F := Ideal))] Vr (Proc.devRef .tc Cert.ReferenceIdeal.main_arg9) = Vr (Proc.devRef .tc Cert.ReferenceIdeal.main_arg9) := by
  dsimp only [Cert.ReferenceIdeal.Pieces.op_dot3]
  after_results_simp

/-- From contents agreeing at region 2's entry on its two operands, the edge data and the arguments, the reference's
    dot_general and the kernel's region leave the product array, the edge data and the remaining arguments in agreement. -/
theorem dot3_agree (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (Vr : Valuation Cert.ReferenceIdeal.τ Cert.ReferenceIdeal.sig (Elt Ideal))
    (h_main_v66 : Vr (Proc.devRef .tc Cert.ReferenceIdeal.main_v66) = Cert.KernelIdeal.Gen.W9 m ρ c (Proc.devRef .tc Cert.KernelIdeal.main_v66))
    (h_main_v5 : Vr (Proc.devRef .tc Cert.ReferenceIdeal.main_v5) = Cert.KernelIdeal.Gen.W9 m ρ c (Proc.devRef .tc Cert.KernelIdeal.main_v5))
    (h_main_v6 : Vr (Proc.devRef .tc Cert.ReferenceIdeal.main_v6) = Cert.KernelIdeal.Gen.W9 m ρ c (Proc.devRef .tc Cert.KernelIdeal.main_v6))
    (h_main_v32 : Vr (Proc.devRef .tc Cert.ReferenceIdeal.main_v32) = Cert.KernelIdeal.Gen.W9 m ρ c (Proc.devRef .tc Cert.KernelIdeal.main_v32))
    (h_main_arg6 : Vr (Proc.devRef .tc Cert.ReferenceIdeal.main_arg6) = Cert.KernelIdeal.Gen.W9 m ρ c (Proc.devRef .tc Cert.KernelIdeal.main_arg6))
    (h_main_arg7 : Vr (Proc.devRef .tc Cert.ReferenceIdeal.main_arg7) = Cert.KernelIdeal.Gen.W9 m ρ c (Proc.devRef .tc Cert.KernelIdeal.main_arg7))
    (h_main_arg8 : Vr (Proc.devRef .tc Cert.ReferenceIdeal.main_arg8) = Cert.KernelIdeal.Gen.W9 m ρ c (Proc.devRef .tc Cert.KernelIdeal.main_arg8))
    (h_main_arg9 : Vr (Proc.devRef .tc Cert.ReferenceIdeal.main_arg9) = Cert.KernelIdeal.Gen.W9 m ρ c (Proc.devRef .tc Cert.KernelIdeal.main_arg9)) :
    after [(Cert.ReferenceIdeal.Pieces.op_dot3 (F := Ideal))] Vr (Proc.devRef .tc Cert.ReferenceIdeal.main_v67)
        = Cert.KernelIdeal.Gen.W10 m ρ c (Proc.devRef .tc Cert.KernelIdeal.main_v67)
    ∧ after [(Cert.ReferenceIdeal.Pieces.op_dot3 (F := Ideal))] Vr (Proc.devRef .tc Cert.ReferenceIdeal.main_v5)
        = Cert.KernelIdeal.Gen.W10 m ρ c (Proc.devRef .tc Cert.KernelIdeal.main_v5)
    ∧ after [(Cert.ReferenceIdeal.Pieces.op_dot3 (F := Ideal))] Vr (Proc.devRef .tc Cert.ReferenceIdeal.main_v6)
        = Cert.KernelIdeal.Gen.W10 m ρ c (Proc.devRef .tc Cert.KernelIdeal.main_v6)
    ∧ after [(Cert.ReferenceIdeal.Pieces.op_dot3 (F := Ideal))] Vr (Proc.devRef .tc Cert.ReferenceIdeal.main_v32)
        = Cert.KernelIdeal.Gen.W10 m ρ c (Proc.devRef .tc Cert.KernelIdeal.main_v32)
    ∧ after [(Cert.ReferenceIdeal.Pieces.op_dot3 (F := Ideal))] Vr (Proc.devRef .tc Cert.ReferenceIdeal.main_arg7)
        = Cert.KernelIdeal.Gen.W10 m ρ c (Proc.devRef .tc Cert.KernelIdeal.main_arg7)
    ∧ after [(Cert.ReferenceIdeal.Pieces.op_dot3 (F := Ideal))] Vr (Proc.devRef .tc Cert.ReferenceIdeal.main_arg8)
        = Cert.KernelIdeal.Gen.W10 m ρ c (Proc.devRef .tc Cert.KernelIdeal.main_arg8)
    ∧ after [(Cert.ReferenceIdeal.Pieces.op_dot3 (F := Ideal))] Vr (Proc.devRef .tc Cert.ReferenceIdeal.main_arg9)
        = Cert.KernelIdeal.Gen.W10 m ρ c (Proc.devRef .tc Cert.KernelIdeal.main_arg9) :=
  ⟨(ref_dot3_out Vr).trans
      ((show Host.dotGeneral (F := Ideal) (φ₁ := .f32) (φ₂ := .f32) Cert.ReferenceIdeal.dot_S100000x32_S32x32_S100000x32_1_0_0_1_n_n none
            (Vr (Proc.devRef .tc Cert.ReferenceIdeal.main_v66) : FVec Ideal Cert.ReferenceIdeal.S100000x32 .f32) (Vr (Proc.devRef .tc Cert.ReferenceIdeal.main_arg6) : FVec Ideal Cert.ReferenceIdeal.S32x32 .f32)
          = Cert.KernelIdeal.Dense2.whole (Cert.KernelIdeal.Gen.W9 m ρ c (Proc.devRef .tc Cert.KernelIdeal.main_v66)) (Cert.KernelIdeal.Gen.W9 m ρ c (Proc.devRef .tc Cert.KernelIdeal.main_arg6))
        from by rw [h_main_v66, h_main_arg6]; rfl).trans
        ((Cert.KernelIdeal.Gen.W10_arr m ρ c 2).trans (Cert.KernelIdeal.Dense2.result_array (Cert.KernelIdeal.Gen.V9 m ρ) c)).symm),
    (ref_dot3_keep_main_v5 Vr).trans (h_main_v5.trans (Cert.KernelIdeal.Gen.W10_of_ne m ρ c Cert.KernelIdeal.main_v5 (by decide)).symm),
    (ref_dot3_keep_main_v6 Vr).trans (h_main_v6.trans (Cert.KernelIdeal.Gen.W10_of_ne m ρ c Cert.KernelIdeal.main_v6 (by decide)).symm),
    (ref_dot3_keep_main_v32 Vr).trans (h_main_v32.trans (Cert.KernelIdeal.Gen.W10_of_ne m ρ c Cert.KernelIdeal.main_v32 (by decide)).symm),
    (ref_dot3_keep_main_arg7 Vr).trans (h_main_arg7.trans (Cert.KernelIdeal.Gen.W10_of_ne m ρ c Cert.KernelIdeal.main_arg7 (by decide)).symm),
    (ref_dot3_keep_main_arg8 Vr).trans (h_main_arg8.trans (Cert.KernelIdeal.Gen.W10_of_ne m ρ c Cert.KernelIdeal.main_arg8 (by decide)).symm),
    (ref_dot3_keep_main_arg9 Vr).trans (h_main_arg9.trans (Cert.KernelIdeal.Gen.W10_of_ne m ρ c Cert.KernelIdeal.main_arg9 (by decide)).symm)⟩

/-! ### Projection 4 -/

/-- The reference's dot_general writes the host's product of its two operands. -/
theorem ref_dot4_out (Vr : Valuation Cert.ReferenceIdeal.τ Cert.ReferenceIdeal.sig (Elt Ideal)) :
    after [(Cert.ReferenceIdeal.Pieces.op_dot4 (F := Ideal))] Vr (Proc.devRef .tc Cert.ReferenceIdeal.main_v83)
      = Host.dotGeneral (F := Ideal) (φ₁ := .f32) (φ₂ := .f32) Cert.ReferenceIdeal.dot_S100000x32_S32x1_S100000x1_1_0_0_1_n_n none
          (Vr (Proc.devRef .tc Cert.ReferenceIdeal.main_v82) : FVec Ideal Cert.ReferenceIdeal.S100000x32 .f32) (Vr (Proc.devRef .tc Cert.ReferenceIdeal.main_arg8) : FVec Ideal Cert.ReferenceIdeal.S32x1 .f32) := by
  dsimp only [Cert.ReferenceIdeal.Pieces.op_dot4]
  after_results_simp

/-! and leaves every other buffer as it was. -/
theorem ref_dot4_keep_main_v5 (Vr : Valuation Cert.ReferenceIdeal.τ Cert.ReferenceIdeal.sig (Elt Ideal)) :
    after [(Cert.ReferenceIdeal.Pieces.op_dot4 (F := Ideal))] Vr (Proc.devRef .tc Cert.ReferenceIdeal.main_v5) = Vr (Proc.devRef .tc Cert.ReferenceIdeal.main_v5) := by
  dsimp only [Cert.ReferenceIdeal.Pieces.op_dot4]
  after_results_simp
theorem ref_dot4_keep_main_v6 (Vr : Valuation Cert.ReferenceIdeal.τ Cert.ReferenceIdeal.sig (Elt Ideal)) :
    after [(Cert.ReferenceIdeal.Pieces.op_dot4 (F := Ideal))] Vr (Proc.devRef .tc Cert.ReferenceIdeal.main_v6) = Vr (Proc.devRef .tc Cert.ReferenceIdeal.main_v6) := by
  dsimp only [Cert.ReferenceIdeal.Pieces.op_dot4]
  after_results_simp
theorem ref_dot4_keep_main_v32 (Vr : Valuation Cert.ReferenceIdeal.τ Cert.ReferenceIdeal.sig (Elt Ideal)) :
    after [(Cert.ReferenceIdeal.Pieces.op_dot4 (F := Ideal))] Vr (Proc.devRef .tc Cert.ReferenceIdeal.main_v32) = Vr (Proc.devRef .tc Cert.ReferenceIdeal.main_v32) := by
  dsimp only [Cert.ReferenceIdeal.Pieces.op_dot4]
  after_results_simp
theorem ref_dot4_keep_main_arg9 (Vr : Valuation Cert.ReferenceIdeal.τ Cert.ReferenceIdeal.sig (Elt Ideal)) :
    after [(Cert.ReferenceIdeal.Pieces.op_dot4 (F := Ideal))] Vr (Proc.devRef .tc Cert.ReferenceIdeal.main_arg9) = Vr (Proc.devRef .tc Cert.ReferenceIdeal.main_arg9) := by
  dsimp only [Cert.ReferenceIdeal.Pieces.op_dot4]
  after_results_simp

/-- From contents agreeing at region 3's entry on its two operands, the edge data and the arguments, the reference's
    dot_general and the kernel's region leave the product array, the edge data and the remaining arguments in agreement. -/
theorem dot4_agree (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (Vr : Valuation Cert.ReferenceIdeal.τ Cert.ReferenceIdeal.sig (Elt Ideal))
    (h_main_v82 : Vr (Proc.devRef .tc Cert.ReferenceIdeal.main_v82) = Cert.KernelIdeal.Gen.W11 m ρ c (Proc.devRef .tc Cert.KernelIdeal.main_v82))
    (h_main_v5 : Vr (Proc.devRef .tc Cert.ReferenceIdeal.main_v5) = Cert.KernelIdeal.Gen.W11 m ρ c (Proc.devRef .tc Cert.KernelIdeal.main_v5))
    (h_main_v6 : Vr (Proc.devRef .tc Cert.ReferenceIdeal.main_v6) = Cert.KernelIdeal.Gen.W11 m ρ c (Proc.devRef .tc Cert.KernelIdeal.main_v6))
    (h_main_v32 : Vr (Proc.devRef .tc Cert.ReferenceIdeal.main_v32) = Cert.KernelIdeal.Gen.W11 m ρ c (Proc.devRef .tc Cert.KernelIdeal.main_v32))
    (h_main_arg8 : Vr (Proc.devRef .tc Cert.ReferenceIdeal.main_arg8) = Cert.KernelIdeal.Gen.W11 m ρ c (Proc.devRef .tc Cert.KernelIdeal.main_arg8))
    (h_main_arg9 : Vr (Proc.devRef .tc Cert.ReferenceIdeal.main_arg9) = Cert.KernelIdeal.Gen.W11 m ρ c (Proc.devRef .tc Cert.KernelIdeal.main_arg9)) :
    after [(Cert.ReferenceIdeal.Pieces.op_dot4 (F := Ideal))] Vr (Proc.devRef .tc Cert.ReferenceIdeal.main_v83)
        = Cert.KernelIdeal.Gen.W12 m ρ c (Proc.devRef .tc Cert.KernelIdeal.main_v83)
    ∧ after [(Cert.ReferenceIdeal.Pieces.op_dot4 (F := Ideal))] Vr (Proc.devRef .tc Cert.ReferenceIdeal.main_v5)
        = Cert.KernelIdeal.Gen.W12 m ρ c (Proc.devRef .tc Cert.KernelIdeal.main_v5)
    ∧ after [(Cert.ReferenceIdeal.Pieces.op_dot4 (F := Ideal))] Vr (Proc.devRef .tc Cert.ReferenceIdeal.main_v6)
        = Cert.KernelIdeal.Gen.W12 m ρ c (Proc.devRef .tc Cert.KernelIdeal.main_v6)
    ∧ after [(Cert.ReferenceIdeal.Pieces.op_dot4 (F := Ideal))] Vr (Proc.devRef .tc Cert.ReferenceIdeal.main_v32)
        = Cert.KernelIdeal.Gen.W12 m ρ c (Proc.devRef .tc Cert.KernelIdeal.main_v32)
    ∧ after [(Cert.ReferenceIdeal.Pieces.op_dot4 (F := Ideal))] Vr (Proc.devRef .tc Cert.ReferenceIdeal.main_arg9)
        = Cert.KernelIdeal.Gen.W12 m ρ c (Proc.devRef .tc Cert.KernelIdeal.main_arg9) :=
  ⟨(ref_dot4_out Vr).trans
      ((show Host.dotGeneral (F := Ideal) (φ₁ := .f32) (φ₂ := .f32) Cert.ReferenceIdeal.dot_S100000x32_S32x1_S100000x1_1_0_0_1_n_n none
            (Vr (Proc.devRef .tc Cert.ReferenceIdeal.main_v82) : FVec Ideal Cert.ReferenceIdeal.S100000x32 .f32) (Vr (Proc.devRef .tc Cert.ReferenceIdeal.main_arg8) : FVec Ideal Cert.ReferenceIdeal.S32x1 .f32)
          = Cert.KernelIdeal.Dense3.whole (Cert.KernelIdeal.Gen.W11 m ρ c (Proc.devRef .tc Cert.KernelIdeal.main_v82)) (Cert.KernelIdeal.Gen.W11 m ρ c (Proc.devRef .tc Cert.KernelIdeal.main_arg8))
        from by rw [h_main_v82, h_main_arg8]; rfl).trans
        ((Cert.KernelIdeal.Gen.W12_arr m ρ c 2).trans (Cert.KernelIdeal.Dense3.result_array (Cert.KernelIdeal.Gen.V11 m ρ) c)).symm),
    (ref_dot4_keep_main_v5 Vr).trans (h_main_v5.trans (Cert.KernelIdeal.Gen.W12_of_ne m ρ c Cert.KernelIdeal.main_v5 (by decide)).symm),
    (ref_dot4_keep_main_v6 Vr).trans (h_main_v6.trans (Cert.KernelIdeal.Gen.W12_of_ne m ρ c Cert.KernelIdeal.main_v6 (by decide)).symm),
    (ref_dot4_keep_main_v32 Vr).trans (h_main_v32.trans (Cert.KernelIdeal.Gen.W12_of_ne m ρ c Cert.KernelIdeal.main_v32 (by decide)).symm),
    (ref_dot4_keep_main_arg9 Vr).trans (h_main_arg9.trans (Cert.KernelIdeal.Gen.W12_of_ne m ρ c Cert.KernelIdeal.main_arg9 (by decide)).symm)⟩

end Cert.Stages

end
-- ==== Proof.StageLayer1.lean ====
/-
  Layer 1's message passing, read on both programs.

  After the dense projection h·W both programs gather the projected rows at the source list, scale each by its edge's
  norm, scatter-add them into the destination rows of a zero array and add the bias, then take the maximum with zero. The operations are the
  same on both sides, so from contents that agree on the projection, the two index lists, the norm and the arguments,
  the layer's output and everything later stretches read agree.
-/
import proofs.«144811_j2748779070162_1_alg».proof.Proof.Gen.KernelIdeal.Frame
import proofs.«144811_j2748779070162_1_alg».proof.Proof.RefRun
import proofs.«144811_j2748779070162_1_alg».proof.Proof.StageTactic

import Idealize.ShloMosaic.Lib.StableHlo.Run
import Idealize.ShloMosaic.PureOps.Ideal

noncomputable section

namespace Cert.Stages

open Idealize.ShloMosaic Idealize.ShloMosaic.TcCoe Idealize.SL.Sem Idealize.ShloMosaic.StableHlo

set_option maxHeartbeats 8000000 in
/-- From contents agreeing on x·W1, the edge data and the arguments, after layer 1's stretch its activation, the edge data and the remaining arguments agree. -/
theorem layer1_agree (Vk : Valuation Cert.KernelIdeal.τ Cert.KernelIdeal.sig (Elt Ideal)) (Vr : Valuation Cert.ReferenceIdeal.τ Cert.ReferenceIdeal.sig (Elt Ideal))
    (h_main_v33 : Vr (Proc.devRef .tc Cert.ReferenceIdeal.main_v33) = Vk (Proc.devRef .tc Cert.KernelIdeal.main_v33))
    (h_main_v5 : Vr (Proc.devRef .tc Cert.ReferenceIdeal.main_v5) = Vk (Proc.devRef .tc Cert.KernelIdeal.main_v5))
    (h_main_v6 : Vr (Proc.devRef .tc Cert.ReferenceIdeal.main_v6) = Vk (Proc.devRef .tc Cert.KernelIdeal.main_v6))
    (h_main_v32 : Vr (Proc.devRef .tc Cert.ReferenceIdeal.main_v32) = Vk (Proc.devRef .tc Cert.KernelIdeal.main_v32))
    (h_main_arg3 : Vr (Proc.devRef .tc Cert.ReferenceIdeal.main_arg3) = Vk (Proc.devRef .tc Cert.KernelIdeal.main_arg3))
    (h_main_arg4 : Vr (Proc.devRef .tc Cert.ReferenceIdeal.main_arg4) = Vk (Proc.devRef .tc Cert.KernelIdeal.main_arg4))
    (h_main_arg5 : Vr (Proc.devRef .tc Cert.ReferenceIdeal.main_arg5) = Vk (Proc.devRef .tc Cert.KernelIdeal.main_arg5))
    (h_main_arg6 : Vr (Proc.devRef .tc Cert.ReferenceIdeal.main_arg6) = Vk (Proc.devRef .tc Cert.KernelIdeal.main_arg6))
    (h_main_arg7 : Vr (Proc.devRef .tc Cert.ReferenceIdeal.main_arg7) = Vk (Proc.devRef .tc Cert.KernelIdeal.main_arg7))
    (h_main_arg8 : Vr (Proc.devRef .tc Cert.ReferenceIdeal.main_arg8) = Vk (Proc.devRef .tc Cert.KernelIdeal.main_arg8))
    (h_main_arg9 : Vr (Proc.devRef .tc Cert.ReferenceIdeal.main_arg9) = Vk (Proc.devRef .tc Cert.KernelIdeal.main_arg9)) :
    after (Cert.ReferenceIdeal.Pieces.ops_layer1 (F := Ideal)) Vr (Proc.devRef .tc Cert.ReferenceIdeal.main_v49)
        = after (Cert.KernelIdeal.Gen.hostOps1_1 (F := Ideal)) (after (Cert.KernelIdeal.Gen.hostOps1 (F := Ideal)) (Vk)) (Proc.devRef .tc Cert.KernelIdeal.main_v49)
    ∧ after (Cert.ReferenceIdeal.Pieces.ops_layer1 (F := Ideal)) Vr (Proc.devRef .tc Cert.ReferenceIdeal.main_v5)
        = after (Cert.KernelIdeal.Gen.hostOps1_1 (F := Ideal)) (after (Cert.KernelIdeal.Gen.hostOps1 (F := Ideal)) (Vk)) (Proc.devRef .tc Cert.KernelIdeal.main_v5)
    ∧ after (Cert.ReferenceIdeal.Pieces.ops_layer1 (F := Ideal)) Vr (Proc.devRef .tc Cert.ReferenceIdeal.main_v6)
        = after (Cert.KernelIdeal.Gen.hostOps1_1 (F := Ideal)) (after (Cert.KernelIdeal.Gen.hostOps1 (F := Ideal)) (Vk)) (Proc.devRef .tc Cert.KernelIdeal.main_v6)
    ∧ after (Cert.ReferenceIdeal.Pieces.ops_layer1 (F := Ideal)) Vr (Proc.devRef .tc Cert.ReferenceIdeal.main_v32)
        = after (Cert.KernelIdeal.Gen.hostOps1_1 (F := Ideal)) (after (Cert.KernelIdeal.Gen.hostOps1 (F := Ideal)) (Vk)) (Proc.devRef .tc Cert.KernelIdeal.main_v32)
    ∧ after (Cert.ReferenceIdeal.Pieces.ops_layer1 (F := Ideal)) Vr (Proc.devRef .tc Cert.ReferenceIdeal.main_arg4)
        = after (Cert.KernelIdeal.Gen.hostOps1_1 (F := Ideal)) (after (Cert.KernelIdeal.Gen.hostOps1 (F := Ideal)) (Vk)) (Proc.devRef .tc Cert.KernelIdeal.main_arg4)
    ∧ after (Cert.ReferenceIdeal.Pieces.ops_layer1 (F := Ideal)) Vr (Proc.devRef .tc Cert.ReferenceIdeal.main_arg5)
        = after (Cert.KernelIdeal.Gen.hostOps1_1 (F := Ideal)) (after (Cert.KernelIdeal.Gen.hostOps1 (F := Ideal)) (Vk)) (Proc.devRef .tc Cert.KernelIdeal.main_arg5)
    ∧ after (Cert.ReferenceIdeal.Pieces.ops_layer1 (F := Ideal)) Vr (Proc.devRef .tc Cert.ReferenceIdeal.main_arg6)
        = after (Cert.KernelIdeal.Gen.hostOps1_1 (F := Ideal)) (after (Cert.KernelIdeal.Gen.hostOps1 (F := Ideal)) (Vk)) (Proc.devRef .tc Cert.KernelIdeal.main_arg6)
    ∧ after (Cert.ReferenceIdeal.Pieces.ops_layer1 (F := Ideal)) Vr (Proc.devRef .tc Cert.ReferenceIdeal.main_arg7)
        = after (Cert.KernelIdeal.Gen.hostOps1_1 (F := Ideal)) (after (Cert.KernelIdeal.Gen.hostOps1 (F := Ideal)) (Vk)) (Proc.devRef .tc Cert.KernelIdeal.main_arg7)
    ∧ after (Cert.ReferenceIdeal.Pieces.ops_layer1 (F := Ideal)) Vr (Proc.devRef .tc Cert.ReferenceIdeal.main_arg8)
        = after (Cert.KernelIdeal.Gen.hostOps1_1 (F := Ideal)) (after (Cert.KernelIdeal.Gen.hostOps1 (F := Ideal)) (Vk)) (Proc.devRef .tc Cert.KernelIdeal.main_arg8)
    ∧ after (Cert.ReferenceIdeal.Pieces.ops_layer1 (F := Ideal)) Vr (Proc.devRef .tc Cert.ReferenceIdeal.main_arg9)
        = after (Cert.KernelIdeal.Gen.hostOps1_1 (F := Ideal)) (after (Cert.KernelIdeal.Gen.hostOps1 (F := Ideal)) (Vk)) (Proc.devRef .tc Cert.KernelIdeal.main_arg9) := by
  refine ⟨?_, ?_, ?_, ?_, ?_, ?_, ?_, ?_, ?_, ?_⟩
  · dsimp only [Cert.ReferenceIdeal.Pieces.ops_layer1, Cert.KernelIdeal.Gen.hostOps1, Cert.KernelIdeal.Gen.hostOps1_1]
    read_stretch
    simp only [h_main_v33, h_main_v5, h_main_v6, h_main_v32, h_main_arg3, h_main_arg4, h_main_arg5, h_main_arg6, h_main_arg7, h_main_arg8, h_main_arg9]
    rfl
  · dsimp only [Cert.ReferenceIdeal.Pieces.ops_layer1, Cert.KernelIdeal.Gen.hostOps1, Cert.KernelIdeal.Gen.hostOps1_1]
    read_stretch
    exact h_main_v5
  · dsimp only [Cert.ReferenceIdeal.Pieces.ops_layer1, Cert.KernelIdeal.Gen.hostOps1, Cert.KernelIdeal.Gen.hostOps1_1]
    read_stretch
    exact h_main_v6
  · dsimp only [Cert.ReferenceIdeal.Pieces.ops_layer1, Cert.KernelIdeal.Gen.hostOps1, Cert.KernelIdeal.Gen.hostOps1_1]
    read_stretch
    exact h_main_v32
  · dsimp only [Cert.ReferenceIdeal.Pieces.ops_layer1, Cert.KernelIdeal.Gen.hostOps1, Cert.KernelIdeal.Gen.hostOps1_1]
    read_stretch
    exact h_main_arg4
  · dsimp only [Cert.ReferenceIdeal.Pieces.ops_layer1, Cert.KernelIdeal.Gen.hostOps1, Cert.KernelIdeal.Gen.hostOps1_1]
    read_stretch
    exact h_main_arg5
  · dsimp only [Cert.ReferenceIdeal.Pieces.ops_layer1, Cert.KernelIdeal.Gen.hostOps1, Cert.KernelIdeal.Gen.hostOps1_1]
    read_stretch
    exact h_main_arg6
  · dsimp only [Cert.ReferenceIdeal.Pieces.ops_layer1, Cert.KernelIdeal.Gen.hostOps1, Cert.KernelIdeal.Gen.hostOps1_1]
    read_stretch
    exact h_main_arg7
  · dsimp only [Cert.ReferenceIdeal.Pieces.ops_layer1, Cert.KernelIdeal.Gen.hostOps1, Cert.KernelIdeal.Gen.hostOps1_1]
    read_stretch
    exact h_main_arg8
  · dsimp only [Cert.ReferenceIdeal.Pieces.ops_layer1, Cert.KernelIdeal.Gen.hostOps1, Cert.KernelIdeal.Gen.hostOps1_1]
    read_stretch
    exact h_main_arg9

end Cert.Stages

end
-- ==== Proof.StageLayer2.lean ====
/-
  Layer 2's message passing, read on both programs.

  After the dense projection h·W both programs gather the projected rows at the source list, scale each by its edge's
  norm, scatter-add them into the destination rows of a zero array and add the bias, then take the maximum with zero. The operations are the
  same on both sides, so from contents that agree on the projection, the two index lists, the norm and the arguments,
  the layer's output and everything later stretches read agree.
-/
import proofs.«144811_j2748779070162_1_alg».proof.Proof.Gen.KernelIdeal.Frame
import proofs.«144811_j2748779070162_1_alg».proof.Proof.RefRun
import proofs.«144811_j2748779070162_1_alg».proof.Proof.StageTactic

import Idealize.ShloMosaic.Lib.StableHlo.Run
import Idealize.ShloMosaic.PureOps.Ideal

noncomputable section

namespace Cert.Stages

open Idealize.ShloMosaic Idealize.ShloMosaic.TcCoe Idealize.SL.Sem Idealize.ShloMosaic.StableHlo

set_option maxHeartbeats 8000000 in
/-- From contents agreeing on h1·W2, the edge data and the arguments, after layer 2's stretch its activation, the edge data and the remaining arguments agree. -/
theorem layer2_agree (Vk : Valuation Cert.KernelIdeal.τ Cert.KernelIdeal.sig (Elt Ideal)) (Vr : Valuation Cert.ReferenceIdeal.τ Cert.ReferenceIdeal.sig (Elt Ideal))
    (h_main_v50 : Vr (Proc.devRef .tc Cert.ReferenceIdeal.main_v50) = Vk (Proc.devRef .tc Cert.KernelIdeal.main_v50))
    (h_main_v5 : Vr (Proc.devRef .tc Cert.ReferenceIdeal.main_v5) = Vk (Proc.devRef .tc Cert.KernelIdeal.main_v5))
    (h_main_v6 : Vr (Proc.devRef .tc Cert.ReferenceIdeal.main_v6) = Vk (Proc.devRef .tc Cert.KernelIdeal.main_v6))
    (h_main_v32 : Vr (Proc.devRef .tc Cert.ReferenceIdeal.main_v32) = Vk (Proc.devRef .tc Cert.KernelIdeal.main_v32))
    (h_main_arg5 : Vr (Proc.devRef .tc Cert.ReferenceIdeal.main_arg5) = Vk (Proc.devRef .tc Cert.KernelIdeal.main_arg5))
    (h_main_arg6 : Vr (Proc.devRef .tc Cert.ReferenceIdeal.main_arg6) = Vk (Proc.devRef .tc Cert.KernelIdeal.main_arg6))
    (h_main_arg7 : Vr (Proc.devRef .tc Cert.ReferenceIdeal.main_arg7) = Vk (Proc.devRef .tc Cert.KernelIdeal.main_arg7))
    (h_main_arg8 : Vr (Proc.devRef .tc Cert.ReferenceIdeal.main_arg8) = Vk (Proc.devRef .tc Cert.KernelIdeal.main_arg8))
    (h_main_arg9 : Vr (Proc.devRef .tc Cert.ReferenceIdeal.main_arg9) = Vk (Proc.devRef .tc Cert.KernelIdeal.main_arg9)) :
    after (Cert.ReferenceIdeal.Pieces.ops_layer2 (F := Ideal)) Vr (Proc.devRef .tc Cert.ReferenceIdeal.main_v66)
        = after (Cert.KernelIdeal.Gen.hostOps2_1 (F := Ideal)) (after (Cert.KernelIdeal.Gen.hostOps2 (F := Ideal)) (Vk)) (Proc.devRef .tc Cert.KernelIdeal.main_v66)
    ∧ after (Cert.ReferenceIdeal.Pieces.ops_layer2 (F := Ideal)) Vr (Proc.devRef .tc Cert.ReferenceIdeal.main_v5)
        = after (Cert.KernelIdeal.Gen.hostOps2_1 (F := Ideal)) (after (Cert.KernelIdeal.Gen.hostOps2 (F := Ideal)) (Vk)) (Proc.devRef .tc Cert.KernelIdeal.main_v5)
    ∧ after (Cert.ReferenceIdeal.Pieces.ops_layer2 (F := Ideal)) Vr (Proc.devRef .tc Cert.ReferenceIdeal.main_v6)
        = after (Cert.KernelIdeal.Gen.hostOps2_1 (F := Ideal)) (after (Cert.KernelIdeal.Gen.hostOps2 (F := Ideal)) (Vk)) (Proc.devRef .tc Cert.KernelIdeal.main_v6)
    ∧ after (Cert.ReferenceIdeal.Pieces.ops_layer2 (F := Ideal)) Vr (Proc.devRef .tc Cert.ReferenceIdeal.main_v32)
        = after (Cert.KernelIdeal.Gen.hostOps2_1 (F := Ideal)) (after (Cert.KernelIdeal.Gen.hostOps2 (F := Ideal)) (Vk)) (Proc.devRef .tc Cert.KernelIdeal.main_v32)
    ∧ after (Cert.ReferenceIdeal.Pieces.ops_layer2 (F := Ideal)) Vr (Proc.devRef .tc Cert.ReferenceIdeal.main_arg6)
        = after (Cert.KernelIdeal.Gen.hostOps2_1 (F := Ideal)) (after (Cert.KernelIdeal.Gen.hostOps2 (F := Ideal)) (Vk)) (Proc.devRef .tc Cert.KernelIdeal.main_arg6)
    ∧ after (Cert.ReferenceIdeal.Pieces.ops_layer2 (F := Ideal)) Vr (Proc.devRef .tc Cert.ReferenceIdeal.main_arg7)
        = after (Cert.KernelIdeal.Gen.hostOps2_1 (F := Ideal)) (after (Cert.KernelIdeal.Gen.hostOps2 (F := Ideal)) (Vk)) (Proc.devRef .tc Cert.KernelIdeal.main_arg7)
    ∧ after (Cert.ReferenceIdeal.Pieces.ops_layer2 (F := Ideal)) Vr (Proc.devRef .tc Cert.ReferenceIdeal.main_arg8)
        = after (Cert.KernelIdeal.Gen.hostOps2_1 (F := Ideal)) (after (Cert.KernelIdeal.Gen.hostOps2 (F := Ideal)) (Vk)) (Proc.devRef .tc Cert.KernelIdeal.main_arg8)
    ∧ after (Cert.ReferenceIdeal.Pieces.ops_layer2 (F := Ideal)) Vr (Proc.devRef .tc Cert.ReferenceIdeal.main_arg9)
        = after (Cert.KernelIdeal.Gen.hostOps2_1 (F := Ideal)) (after (Cert.KernelIdeal.Gen.hostOps2 (F := Ideal)) (Vk)) (Proc.devRef .tc Cert.KernelIdeal.main_arg9) := by
  refine ⟨?_, ?_, ?_, ?_, ?_, ?_, ?_, ?_⟩
  · dsimp only [Cert.ReferenceIdeal.Pieces.ops_layer2, Cert.KernelIdeal.Gen.hostOps2, Cert.KernelIdeal.Gen.hostOps2_1]
    read_stretch
    simp only [h_main_v50, h_main_v5, h_main_v6, h_main_v32, h_main_arg5, h_main_arg6, h_main_arg7, h_main_arg8, h_main_arg9]
    rfl
  · dsimp only [Cert.ReferenceIdeal.Pieces.ops_layer2, Cert.KernelIdeal.Gen.hostOps2, Cert.KernelIdeal.Gen.hostOps2_1]
    read_stretch
    exact h_main_v5
  · dsimp only [Cert.ReferenceIdeal.Pieces.ops_layer2, Cert.KernelIdeal.Gen.hostOps2, Cert.KernelIdeal.Gen.hostOps2_1]
    read_stretch
    exact h_main_v6
  · dsimp only [Cert.ReferenceIdeal.Pieces.ops_layer2, Cert.KernelIdeal.Gen.hostOps2, Cert.KernelIdeal.Gen.hostOps2_1]
    read_stretch
    exact h_main_v32
  · dsimp only [Cert.ReferenceIdeal.Pieces.ops_layer2, Cert.KernelIdeal.Gen.hostOps2, Cert.KernelIdeal.Gen.hostOps2_1]
    read_stretch
    exact h_main_arg6
  · dsimp only [Cert.ReferenceIdeal.Pieces.ops_layer2, Cert.KernelIdeal.Gen.hostOps2, Cert.KernelIdeal.Gen.hostOps2_1]
    read_stretch
    exact h_main_arg7
  · dsimp only [Cert.ReferenceIdeal.Pieces.ops_layer2, Cert.KernelIdeal.Gen.hostOps2, Cert.KernelIdeal.Gen.hostOps2_1]
    read_stretch
    exact h_main_arg8
  · dsimp only [Cert.ReferenceIdeal.Pieces.ops_layer2, Cert.KernelIdeal.Gen.hostOps2, Cert.KernelIdeal.Gen.hostOps2_1]
    read_stretch
    exact h_main_arg9

end Cert.Stages

end
-- ==== Proof.StageLayer3.lean ====
/-
  Layer 3's message passing, read on both programs.

  After the dense projection h·W both programs gather the projected rows at the source list, scale each by its edge's
  norm, scatter-add them into the destination rows of a zero array and add the bias. The operations are the
  same on both sides, so from contents that agree on the projection, the two index lists, the norm and the arguments,
  the layer's output and everything later stretches read agree.
-/
import proofs.«144811_j2748779070162_1_alg».proof.Proof.Gen.KernelIdeal.Frame
import proofs.«144811_j2748779070162_1_alg».proof.Proof.RefRun
import proofs.«144811_j2748779070162_1_alg».proof.Proof.StageTactic

import Idealize.ShloMosaic.Lib.StableHlo.Run
import Idealize.ShloMosaic.PureOps.Ideal

noncomputable section

namespace Cert.Stages

open Idealize.ShloMosaic Idealize.ShloMosaic.TcCoe Idealize.SL.Sem Idealize.ShloMosaic.StableHlo

set_option maxHeartbeats 8000000 in
/-- From contents agreeing on h2·W3, the edge data and the arguments, after layer 3's stretch its output, the edge data and the remaining arguments agree. -/
theorem layer3_agree (Vk : Valuation Cert.KernelIdeal.τ Cert.KernelIdeal.sig (Elt Ideal)) (Vr : Valuation Cert.ReferenceIdeal.τ Cert.ReferenceIdeal.sig (Elt Ideal))
    (h_main_v67 : Vr (Proc.devRef .tc Cert.ReferenceIdeal.main_v67) = Vk (Proc.devRef .tc Cert.KernelIdeal.main_v67))
    (h_main_v5 : Vr (Proc.devRef .tc Cert.ReferenceIdeal.main_v5) = Vk (Proc.devRef .tc Cert.KernelIdeal.main_v5))
    (h_main_v6 : Vr (Proc.devRef .tc Cert.ReferenceIdeal.main_v6) = Vk (Proc.devRef .tc Cert.KernelIdeal.main_v6))
    (h_main_v32 : Vr (Proc.devRef .tc Cert.ReferenceIdeal.main_v32) = Vk (Proc.devRef .tc Cert.KernelIdeal.main_v32))
    (h_main_arg7 : Vr (Proc.devRef .tc Cert.ReferenceIdeal.main_arg7) = Vk (Proc.devRef .tc Cert.KernelIdeal.main_arg7))
    (h_main_arg8 : Vr (Proc.devRef .tc Cert.ReferenceIdeal.main_arg8) = Vk (Proc.devRef .tc Cert.KernelIdeal.main_arg8))
    (h_main_arg9 : Vr (Proc.devRef .tc Cert.ReferenceIdeal.main_arg9) = Vk (Proc.devRef .tc Cert.KernelIdeal.main_arg9)) :
    after (Cert.ReferenceIdeal.Pieces.ops_layer3 (F := Ideal)) Vr (Proc.devRef .tc Cert.ReferenceIdeal.main_v82)
        = after (Cert.KernelIdeal.Gen.hostOps3 (F := Ideal)) (Vk) (Proc.devRef .tc Cert.KernelIdeal.main_v82)
    ∧ after (Cert.ReferenceIdeal.Pieces.ops_layer3 (F := Ideal)) Vr (Proc.devRef .tc Cert.ReferenceIdeal.main_v5)
        = after (Cert.KernelIdeal.Gen.hostOps3 (F := Ideal)) (Vk) (Proc.devRef .tc Cert.KernelIdeal.main_v5)
    ∧ after (Cert.ReferenceIdeal.Pieces.ops_layer3 (F := Ideal)) Vr (Proc.devRef .tc Cert.ReferenceIdeal.main_v6)
        = after (Cert.KernelIdeal.Gen.hostOps3 (F := Ideal)) (Vk) (Proc.devRef .tc Cert.KernelIdeal.main_v6)
    ∧ after (Cert.ReferenceIdeal.Pieces.ops_layer3 (F := Ideal)) Vr (Proc.devRef .tc Cert.ReferenceIdeal.main_v32)
        = after (Cert.KernelIdeal.Gen.hostOps3 (F := Ideal)) (Vk) (Proc.devRef .tc Cert.KernelIdeal.main_v32)
    ∧ after (Cert.ReferenceIdeal.Pieces.ops_layer3 (F := Ideal)) Vr (Proc.devRef .tc Cert.ReferenceIdeal.main_arg8)
        = after (Cert.KernelIdeal.Gen.hostOps3 (F := Ideal)) (Vk) (Proc.devRef .tc Cert.KernelIdeal.main_arg8)
    ∧ after (Cert.ReferenceIdeal.Pieces.ops_layer3 (F := Ideal)) Vr (Proc.devRef .tc Cert.ReferenceIdeal.main_arg9)
        = after (Cert.KernelIdeal.Gen.hostOps3 (F := Ideal)) (Vk) (Proc.devRef .tc Cert.KernelIdeal.main_arg9) := by
  refine ⟨?_, ?_, ?_, ?_, ?_, ?_⟩
  · dsimp only [Cert.ReferenceIdeal.Pieces.ops_layer3, Cert.KernelIdeal.Gen.hostOps3]
    read_stretch
    simp only [h_main_v67, h_main_v5, h_main_v6, h_main_v32, h_main_arg7, h_main_arg8, h_main_arg9]
    rfl
  · dsimp only [Cert.ReferenceIdeal.Pieces.ops_layer3, Cert.KernelIdeal.Gen.hostOps3]
    read_stretch
    exact h_main_v5
  · dsimp only [Cert.ReferenceIdeal.Pieces.ops_layer3, Cert.KernelIdeal.Gen.hostOps3]
    read_stretch
    exact h_main_v6
  · dsimp only [Cert.ReferenceIdeal.Pieces.ops_layer3, Cert.KernelIdeal.Gen.hostOps3]
    read_stretch
    exact h_main_v32
  · dsimp only [Cert.ReferenceIdeal.Pieces.ops_layer3, Cert.KernelIdeal.Gen.hostOps3]
    read_stretch
    exact h_main_arg8
  · dsimp only [Cert.ReferenceIdeal.Pieces.ops_layer3, Cert.KernelIdeal.Gen.hostOps3]
    read_stretch
    exact h_main_arg9

end Cert.Stages

end
-- ==== Proof.StageTail.lean ====
/-
  The last layer's message passing and the sigmoid, read on both programs.

  After the fourth dense projection both programs gather, scale, scatter-add and add the bias as in the earlier layers,
  and apply the logistic function 1 / (1 + exp (−h)). The operations are the same on both sides, so from contents that
  agree on the projection, the two index lists, the norm and the last bias the results agree.
-/
import proofs.«144811_j2748779070162_1_alg».proof.Proof.Gen.KernelIdeal.Frame
import proofs.«144811_j2748779070162_1_alg».proof.Proof.RefRun
import proofs.«144811_j2748779070162_1_alg».proof.Proof.StageTactic

import Idealize.ShloMosaic.Lib.StableHlo.Run
import Idealize.ShloMosaic.PureOps.Ideal

noncomputable section

namespace Cert.Stages

open Idealize.ShloMosaic Idealize.ShloMosaic.TcCoe Idealize.SL.Sem Idealize.ShloMosaic.StableHlo

set_option maxHeartbeats 8000000 in
/-- From contents agreeing on h3·W4, the edge data and the last bias, the results agree. -/
theorem tail_agree (Vk : Valuation Cert.KernelIdeal.τ Cert.KernelIdeal.sig (Elt Ideal)) (Vr : Valuation Cert.ReferenceIdeal.τ Cert.ReferenceIdeal.sig (Elt Ideal))
    (h_main_v83 : Vr (Proc.devRef .tc Cert.ReferenceIdeal.main_v83) = Vk (Proc.devRef .tc Cert.KernelIdeal.main_v83))
    (h_main_v5 : Vr (Proc.devRef .tc Cert.ReferenceIdeal.main_v5) = Vk (Proc.devRef .tc Cert.KernelIdeal.main_v5))
    (h_main_v6 : Vr (Proc.devRef .tc Cert.ReferenceIdeal.main_v6) = Vk (Proc.devRef .tc Cert.KernelIdeal.main_v6))
    (h_main_v32 : Vr (Proc.devRef .tc Cert.ReferenceIdeal.main_v32) = Vk (Proc.devRef .tc Cert.KernelIdeal.main_v32))
    (h_main_arg9 : Vr (Proc.devRef .tc Cert.ReferenceIdeal.main_arg9) = Vk (Proc.devRef .tc Cert.KernelIdeal.main_arg9)) :
    after (Cert.ReferenceIdeal.Pieces.ops_tail (F := Ideal)) Vr (Proc.devRef .tc Cert.ReferenceIdeal.main_v103)
        = after (Cert.KernelIdeal.Gen.hostOps4 (F := Ideal)) (Vk) (Proc.devRef .tc Cert.KernelIdeal.main_v103) := by
  dsimp only [Cert.ReferenceIdeal.Pieces.ops_tail, Cert.KernelIdeal.Gen.hostOps4]
  read_stretch
  simp only [h_main_v83, h_main_v5, h_main_v6, h_main_v32, h_main_arg9]
  rfl

end Cert.Stages

end
-- ==== Proof.Bridge.lean ====
/-
  The two programs' results agree.

  Both programs are the same sequence of host operations except at four places, where the reference has a dot_general
  and the kernel a row-tiled region. Reading the reference's fold of operations piece by piece beside the kernel's
  boundary contents, each stretch and each product carries the agreement of the buffers still to be read from one
  boundary to the next (the stage modules); from launch contents that agree on the arguments the chain ends with the
  result buffers equal.
-/
import proofs.«144811_j2748779070162_1_alg».proof.Proof.Gen.KernelIdeal.Frame
import proofs.«144811_j2748779070162_1_alg».proof.Proof.RefRun
import proofs.«144811_j2748779070162_1_alg».proof.Proof.StagePrep
import proofs.«144811_j2748779070162_1_alg».proof.Proof.StageDots
import proofs.«144811_j2748779070162_1_alg».proof.Proof.StageLayer1
import proofs.«144811_j2748779070162_1_alg».proof.Proof.StageLayer2
import proofs.«144811_j2748779070162_1_alg».proof.Proof.StageLayer3
import proofs.«144811_j2748779070162_1_alg».proof.Proof.StageTail
import Idealize.ShloMosaic.Lib.StableHlo.Run
import Idealize.ShloMosaic.PureOps.Ideal

noncomputable section

namespace Cert.Stages

open Idealize.ShloMosaic Idealize.ShloMosaic.TcCoe Idealize.SL.Sem Idealize.ShloMosaic.StableHlo
open Cert.ReferenceIdeal.Pieces

/-- The reference's fold over its 133 operations is the folds over the nine pieces in turn. -/
theorem ops_fold (V : Valuation Cert.ReferenceIdeal.τ Cert.ReferenceIdeal.sig (Elt Ideal)) :
    after (ops (F := Ideal)) V
      = after ops_tail (after [op_dot4] (after ops_layer3 (after [op_dot3] (after ops_layer2 (after [op_dot2]
          (after ops_layer1 (after [op_dot1] (after ops_prep V)))))))) :=
  calc after (ops (F := Ideal)) V
      _ = after (op_dot1 :: (ops_layer1 ++ op_dot2 :: (ops_layer2 ++ op_dot3 :: (ops_layer3 ++ op_dot4 :: ops_tail)))) (after ops_prep V) :=
        StableHlo.after_append _ _ V
      _ = after (op_dot2 :: (ops_layer2 ++ op_dot3 :: (ops_layer3 ++ op_dot4 :: ops_tail))) (after ops_layer1 (after [op_dot1] (after ops_prep V))) :=
        StableHlo.after_append _ _ _
      _ = after (op_dot3 :: (ops_layer3 ++ op_dot4 :: ops_tail)) (after ops_layer2 (after [op_dot2] (after ops_layer1 (after [op_dot1] (after ops_prep V))))) :=
        StableHlo.after_append _ _ _
      _ = after (op_dot4 :: ops_tail) (after ops_layer3 (after [op_dot3] (after ops_layer2 (after [op_dot2] (after ops_layer1 (after [op_dot1] (after ops_prep V))))))) :=
        StableHlo.after_append _ _ _
      _ = _ := rfl

/-- From launch memories agreeing on the ten arguments, the reference's result buffer after its 133 operations holds
    what the kernel's result buffer holds at its last boundary. -/
theorem result_agree (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    after (ops (F := Ideal)) (launchContents m' c) (Proc.devRef .tc Cert.ReferenceIdeal.main_v103)
      = Cert.KernelIdeal.Gen.W13 m ρ c (Proc.devRef .tc Cert.KernelIdeal.main_v103) := by
  rw [ops_fold]
  obtain ⟨a_main_v5, a_main_v6, a_main_v32, a_main_arg0, a_main_arg2, a_main_arg3, a_main_arg4, a_main_arg5, a_main_arg6, a_main_arg7, a_main_arg8, a_main_arg9⟩ :=
    prep_agree (Cert.KernelIdeal.Gen.W0 m ρ c) (launchContents m' c) h0 h1 h2 h3 h4 h5 h6 h7 h8 h9
  obtain ⟨b_main_v33, b_main_v5, b_main_v6, b_main_v32, b_main_arg3, b_main_arg4, b_main_arg5, b_main_arg6, b_main_arg7, b_main_arg8, b_main_arg9⟩ :=
    dot1_agree m ρ c _ a_main_v5 a_main_v6 a_main_v32 a_main_arg0 a_main_arg2 a_main_arg3 a_main_arg4 a_main_arg5 a_main_arg6 a_main_arg7 a_main_arg8 a_main_arg9
  obtain ⟨c_main_v49, c_main_v5, c_main_v6, c_main_v32, c_main_arg4, c_main_arg5, c_main_arg6, c_main_arg7, c_main_arg8, c_main_arg9⟩ :=
    layer1_agree (Cert.KernelIdeal.Gen.W4 m ρ c) _ b_main_v33 b_main_v5 b_main_v6 b_main_v32 b_main_arg3 b_main_arg4 b_main_arg5 b_main_arg6 b_main_arg7 b_main_arg8 b_main_arg9
  obtain ⟨d_main_v50, d_main_v5, d_main_v6, d_main_v32, d_main_arg5, d_main_arg6, d_main_arg7, d_main_arg8, d_main_arg9⟩ :=
    dot2_agree m ρ c _ c_main_v49 c_main_v5 c_main_v6 c_main_v32 c_main_arg4 c_main_arg5 c_main_arg6 c_main_arg7 c_main_arg8 c_main_arg9
  obtain ⟨e_main_v66, e_main_v5, e_main_v6, e_main_v32, e_main_arg6, e_main_arg7, e_main_arg8, e_main_arg9⟩ :=
    layer2_agree (Cert.KernelIdeal.Gen.W7 m ρ c) _ d_main_v50 d_main_v5 d_main_v6 d_main_v32 d_main_arg5 d_main_arg6 d_main_arg7 d_main_arg8 d_main_arg9
  obtain ⟨f_main_v67, f_main_v5, f_main_v6, f_main_v32, f_main_arg7, f_main_arg8, f_main_arg9⟩ :=
    dot3_agree m ρ c _ e_main_v66 e_main_v5 e_main_v6 e_main_v32 e_main_arg6 e_main_arg7 e_main_arg8 e_main_arg9
  obtain ⟨g_main_v82, g_main_v5, g_main_v6, g_main_v32, g_main_arg8, g_main_arg9⟩ :=
    layer3_agree (Cert.KernelIdeal.Gen.W10 m ρ c) _ f_main_v67 f_main_v5 f_main_v6 f_main_v32 f_main_arg7 f_main_arg8 f_main_arg9
  obtain ⟨i_main_v83, i_main_v5, i_main_v6, i_main_v32, i_main_arg9⟩ :=
    dot4_agree m ρ c _ g_main_v82 g_main_v5 g_main_v6 g_main_v32 g_main_arg8 g_main_arg9
  exact tail_agree (Cert.KernelIdeal.Gen.W12 m ρ c) _ i_main_v83 i_main_v5 i_main_v6 i_main_v32 i_main_arg9

end Cert.Stages

end
-- ==== Proof.lean ====
/-
  The certificate of the four-layer graph convolution network.

  The kernel and its reference are one program but for the dense projections: where the reference multiplies the whole
  matrices the kernel multiplies ten blocks of 10000 rows, narrowed to bf16, into a zero accumulator. On the extended
  reals narrowing is the identity and an entry of a product reads one row of the left factor, so each region leaves
  exactly the host's product (the row-tile modules); everything around the projections — the edge lists with self loops,
  the degree normalisation, the gathers, the scatter-adds, the biases, the two maxima with zero and the final logistic
  function — is the same list of operations on both sides. Neither finiteness nor any reordering of a sum is used.

  The three frames: the two kernels' are the generated frame certificates; the reference's is its run with the result
  dropped. The idealization rewrote nothing, so the preservation claim is trivial. The value claim: the kernel's run
  names its result at the last boundary's contents (the run module), the reference's run has every buffer at the fold
  of its operations (the patched run module), and the two agree (the stage modules and their chain).
-/
import proofs.«144811_j2748779070162_1_alg».proof.Defs
import proofs.«144811_j2748779070162_1_alg».proof.Proof.Gen.Kernel
import proofs.«144811_j2748779070162_1_alg».proof.Proof.Gen.Kernel.Skeleton
import proofs.«144811_j2748779070162_1_alg».proof.Proof.Gen.Kernel.Launch
import proofs.«144811_j2748779070162_1_alg».proof.Proof.Gen.Kernel.Points
import proofs.«144811_j2748779070162_1_alg».proof.Proof.Gen.Kernel.Frame
import proofs.«144811_j2748779070162_1_alg».proof.Proof.Gen.KernelIdeal
import proofs.«144811_j2748779070162_1_alg».proof.Proof.Gen.KernelIdeal.Skeleton
import proofs.«144811_j2748779070162_1_alg».proof.Proof.Gen.KernelIdeal.Launch
import proofs.«144811_j2748779070162_1_alg».proof.Proof.Gen.KernelIdeal.Points
import proofs.«144811_j2748779070162_1_alg».proof.Proof.Gen.KernelIdeal.Frame
import proofs.«144811_j2748779070162_1_alg».proof.Proof.Gen.ReferenceIdeal
import proofs.«144811_j2748779070162_1_alg».proof.Proof.Gen.Pre_finite_inputs
import proofs.«144811_j2748779070162_1_alg».proof.Proof.KernelRun
import proofs.«144811_j2748779070162_1_alg».proof.Proof.RefRun
import proofs.«144811_j2748779070162_1_alg».proof.Proof.RefKept
import proofs.«144811_j2748779070162_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernel_ideal : Cert.frame_KernelIdeal := fun m ρ _ => Cert.KernelIdeal.Gen.frame m ρ

/-- The reference's run ends with each argument array at its launch contents: no operation writes one. -/
theorem frame_reference : Cert.frame_ReferenceIdeal := fun m ρ _ =>
  (θ_run Cert.ReferenceIdeal.defs _ _).mono (fun _ h c =>
    ⟨(h c Cert.ReferenceIdeal.main_arg0).trans (Cert.ReferenceIdeal.Pieces.kept_arg0 _),
     (h c Cert.ReferenceIdeal.main_arg1).trans (Cert.ReferenceIdeal.Pieces.kept_arg1 _),
     (h c Cert.ReferenceIdeal.main_arg2).trans (Cert.ReferenceIdeal.Pieces.kept_arg2 _),
     (h c Cert.ReferenceIdeal.main_arg3).trans (Cert.ReferenceIdeal.Pieces.kept_arg3 _),
     (h c Cert.ReferenceIdeal.main_arg4).trans (Cert.ReferenceIdeal.Pieces.kept_arg4 _),
     (h c Cert.ReferenceIdeal.main_arg5).trans (Cert.ReferenceIdeal.Pieces.kept_arg5 _),
     (h c Cert.ReferenceIdeal.main_arg6).trans (Cert.ReferenceIdeal.Pieces.kept_arg6 _),
     (h c Cert.ReferenceIdeal.main_arg7).trans (Cert.ReferenceIdeal.Pieces.kept_arg7 _),
     (h c Cert.ReferenceIdeal.main_arg8).trans (Cert.ReferenceIdeal.Pieces.kept_arg8 _),
     (h c Cert.ReferenceIdeal.main_arg9).trans (Cert.ReferenceIdeal.Pieces.kept_arg9 _)⟩)
    (Cert.ReferenceIdeal.Pieces.run_after (F := Ideal) m ρ)

/-- The idealization rewrote no operation. -/
theorem preserves : Cert.preserves_Kernel_KernelIdeal := trivial

/-- The two idealized programs, from memories agreeing on the arguments, end with equal results: the kernel's result at
    its last boundary's contents, which is what the reference's fold of operations leaves in its result buffer. -/
theorem algebraic : Cert.algebraic_KernelIdeal_ReferenceIdeal := by
  intro m ρ m' ρ' _ hagree
  refine ⟨fun c => Cert.KernelIdeal.Gen.W13 m ρ c (Proc.devRef .tc Cert.KernelIdeal.main_v103), Cert.KernelIdeal.Result.run (F := Ideal) m ρ, ?_⟩
  refine (θ_run Cert.ReferenceIdeal.defs _ _).mono (fun _ h c => ?_) (Cert.ReferenceIdeal.Pieces.run_after (F := Ideal) m' ρ')
  obtain ⟨h0, h1, h2, h3, h4, h5, h6, h7, h8, h9⟩ := hagree c
  exact ⟨(h c Cert.ReferenceIdeal.main_v103).trans (Cert.Stages.result_agree m ρ m' c h0 h1 h2 h3 h4 h5 h6 h7 h8 h9),
     (h c Cert.ReferenceIdeal.main_arg0).trans (Cert.ReferenceIdeal.Pieces.kept_arg0 _),
     (h c Cert.ReferenceIdeal.main_arg1).trans (Cert.ReferenceIdeal.Pieces.kept_arg1 _),
     (h c Cert.ReferenceIdeal.main_arg2).trans (Cert.ReferenceIdeal.Pieces.kept_arg2 _),
     (h c Cert.ReferenceIdeal.main_arg3).trans (Cert.ReferenceIdeal.Pieces.kept_arg3 _),
     (h c Cert.ReferenceIdeal.main_arg4).trans (Cert.ReferenceIdeal.Pieces.kept_arg4 _),
     (h c Cert.ReferenceIdeal.main_arg5).trans (Cert.ReferenceIdeal.Pieces.kept_arg5 _),
     (h c Cert.ReferenceIdeal.main_arg6).trans (Cert.ReferenceIdeal.Pieces.kept_arg6 _),
     (h c Cert.ReferenceIdeal.main_arg7).trans (Cert.ReferenceIdeal.Pieces.kept_arg7 _),
     (h c Cert.ReferenceIdeal.main_arg8).trans (Cert.ReferenceIdeal.Pieces.kept_arg8 _),
     (h c Cert.ReferenceIdeal.main_arg9).trans (Cert.ReferenceIdeal.Pieces.kept_arg9 _)⟩

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
